-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S50000x1 : Shape := ⟨2, ![50000, 1]⟩
abbrev S1x128 : Shape := ⟨2, ![1, 128]⟩
abbrev S675000x128 : Shape := ⟨2, ![675000, 128]⟩
abbrev S50000x64 : Shape := ⟨2, ![50000, 64]⟩
abbrev S675000x64 : Shape := ⟨2, ![675000, 64]⟩
abbrev S1x64 : Shape := ⟨2, ![1, 64]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 64
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S50000, .i32⟩
  | .hbm, ⟨11, _⟩ => ⟨S675000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S50000x128, .bf16⟩
  | .hbm, ⟨30, _⟩ => ⟨S_, .i32⟩
  | .hbm, ⟨31, _⟩ => ⟨S675000, .i32⟩
  | .hbm, ⟨32, _⟩ => ⟨S675000, .i1⟩
  | .hbm, ⟨33, _⟩ => ⟨S_, .i32⟩
  | .hbm, ⟨34, _⟩ => ⟨S675000, .i32⟩
  | .hbm, ⟨35, _⟩ => ⟨S675000, .i32⟩
  | .hbm, ⟨36, _⟩ => ⟨S675000, .i32⟩
  | .hbm, ⟨37, _⟩ => ⟨S675000x1, .i32⟩
  | .hbm, ⟨38, _⟩ => ⟨S675000x128, .bf16⟩
  | .hbm, ⟨39, _⟩ => ⟨S675000x128, .f32⟩
  | .hbm, ⟨40, _⟩ => ⟨S_, .f32⟩
  | .hbm, ⟨41, _⟩ => ⟨S50000x128, .f32⟩
  | .hbm, ⟨42, _⟩ => ⟨S675000x1, .i32⟩
  | .hbm, ⟨43, _⟩ => ⟨S50000x128, .f32⟩
  | .hbm, ⟨44, _⟩ => ⟨S50000x64, .bf16⟩
  | .hbm, ⟨45, _⟩ => ⟨S_, .i32⟩
  | .hbm, ⟨46, _⟩ => ⟨S675000, .i32⟩
  | .hbm, ⟨47, _⟩ => ⟨S675000, .i1⟩
  | .hbm, ⟨48, _⟩ => ⟨S_, .i32⟩
  | .hbm, ⟨49, _⟩ => ⟨S675000, .i32⟩
  | .hbm, ⟨50, _⟩ => ⟨S675000, .i32⟩
  | .hbm, ⟨51, _⟩ => ⟨S675000, .i32⟩
  | .hbm, ⟨52, _⟩ => ⟨S675000x1, .i32⟩
  | .hbm, ⟨53, _⟩ => ⟨S675000x64, .bf16⟩
  | .hbm, ⟨54, _⟩ => ⟨S675000x64, .f32⟩
  | .hbm, ⟨55, _⟩ => ⟨S_, .f32⟩
  | .hbm, ⟨56, _⟩ => ⟨S50000x64, .f32⟩
  | .hbm, ⟨57, _⟩ => ⟨S675000x1, .i32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x64, .f32⟩
  | .local _ .vmem, ⟨13, _⟩ => ⟨S2000x64, .bf16⟩
  | .local _ .vmem, ⟨14, _⟩ => ⟨S2000x64, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_cst_1 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_2 : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_c : Ref sig .tc := ⟨.hbm, 30, rfl⟩
abbrev main_call0_v18 : Ref sig .tc := ⟨.hbm, 31, rfl⟩
abbrev main_call0_v19 : Ref sig .tc := ⟨.hbm, 32, rfl⟩
abbrev main_call0_c_3 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_cst_4 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_c_5 : Ref sig .tc := ⟨.hbm, 45, rfl⟩
abbrev main_call0_v30 : Ref sig .tc := ⟨.hbm, 46, rfl⟩
abbrev main_call0_v31 : Ref sig .tc := ⟨.hbm, 47, rfl⟩
abbrev main_call0_c_6 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_cst_7 : Ref sig .tc := ⟨.hbm, 55, rfl⟩
abbrev main_call0_v38 : Ref sig .tc := ⟨.hbm, 56, rfl⟩
abbrev main_call0_v39 : Ref sig .tc := ⟨.hbm, 57, rfl⟩
abbrev main_call0_v40 : Ref sig .tc := ⟨.hbm, 58, rfl⟩
abbrev main_call0_v41 : Ref sig .tc := ⟨.hbm, 59, rfl⟩
abbrev main_call0_v42 : Ref sig .tc := ⟨.hbm, 60, rfl⟩
abbrev main_call0_v43 : Ref sig .tc := ⟨.hbm, 61, rfl⟩
abbrev main_call0_v44 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  shapeCasts_S50000_S50000x1 : S50000.ShapeCasts S50000x1
  shapeCasts_S128_S1x128 : S128.ShapeCasts S1x128
  bitsLt_bf16_f32 : FTy.bits .bf16 < FTy.bits .f32
  bcast_S_S50000x128 : S_.BroadcastsInDim S50000x128 (![] : Fin 0 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  scatter_S50000_S675000x1_S675000_n_0_0_1_wf : ScatterDims.WF S50000 S675000x1 S675000 [] [0] [0] 1
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  gather_S50000x64_S675000x1_S675000x64_1_0_n_n_0_1_164_wf : GatherDims.WF S50000x64 S675000x1 S675000x64 [1] [0] [] [0] [] 1 ![1, 64]
  scatter_S50000x64_S675000x1_S675000x64_1_0_0_1_wf : ScatterDims.WF S50000x64 S675000x1 S675000x64 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def gather_S50000x64_S675000x1_S675000x64_1_0_n_n_0_1_164 : GatherDims S50000x64 S675000x1 S675000x64 where
  offsetDims := [1]
  collapsedSliceDims := [0]
  operandBatchingDims := []
  startIndicesBatchingDims := []
  startIndexMap := [0]
  indexVectorDim := 1
  sliceSizes := ![1, 64]
  wf := gather_S50000x64_S675000x1_S675000x64_1_0_n_n_0_1_164_wf
def scatter_S50000x64_S675000x1_S675000x64_1_0_0_1 : ScatterDims S50000x64 S675000x1 S675000x64 where
  updateWindowDims := [1]
  insertedWindowDims := [0]
  scatterDimsToOperandDims := [0]
  indexVectorDim := 1
  wf := scatter_S50000x64_S675000x1_S675000x64_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v29) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x625000 : Shape := ⟨2, ![1, 625000]⟩
abbrev S625000 : Shape := ⟨1, ![625000]⟩
abbrev S50000 : Shape := ⟨1, ![50000]⟩
abbrev S675000 : Shape := ⟨1, ![675000]⟩
abbrev S_ : Shape := ⟨0, ![]⟩
abbrev S675000x1 : Shape := ⟨2, ![675000, 1]⟩
abbrev S675000x128 : Shape := ⟨2, ![675000, 128]⟩
abbrev S1x128 : Shape := ⟨2, ![1, 128]⟩
abbrev S50000x64 : Shape := ⟨2, ![50000, 64]⟩
abbrev S675000x64 : Shape := ⟨2, ![675000, 64]⟩
abbrev S1x64 : Shape := ⟨2, ![1, 64]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S50000, .i32⟩
  | .hbm, ⟨11, _⟩ => ⟨S675000, .i32⟩
  | .hbm, ⟨12, _⟩ => ⟨S675000, .i32⟩
  | .hbm, ⟨13, _⟩ => ⟨S_, .f32⟩
  | .hbm, ⟨14, _⟩ => ⟨S675000, .f32⟩
  | .hbm, ⟨15, _⟩ => ⟨S_, .f32⟩
  | .hbm, ⟨16, _⟩ => ⟨S50000, .f32⟩
  | .hbm, ⟨17, _⟩ => ⟨S675000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S675000, .i32⟩
  | .hbm, ⟨29, _⟩ => ⟨S675000, .i1⟩
  | .hbm, ⟨30, _⟩ => ⟨S_, .i32⟩
  | .hbm, ⟨31, _⟩ => ⟨S675000, .i32⟩
  | .hbm, ⟨32, _⟩ => ⟨S675000, .i32⟩
  | .hbm, ⟨33, _⟩ => ⟨S675000, .i32⟩
  | .hbm, ⟨34, _⟩ => ⟨S675000x1, .i32⟩
  | .hbm, ⟨35, _⟩ => ⟨S675000, .f32⟩
  | .hbm, ⟨36, _⟩ => ⟨S_, .i32⟩
  | .hbm, ⟨37, _⟩ => ⟨S675000, .i32⟩
  | .hbm, ⟨38, _⟩ => ⟨S675000, .i1⟩
  | .hbm, ⟨39, _⟩ => ⟨S_, .i32⟩
  | .hbm, ⟨40, _⟩ => ⟨S675000, .i32⟩
  | .hbm, ⟨41, _⟩ => ⟨S675000, .i32⟩
  | .hbm, ⟨42, _⟩ => ⟨S675000, .i32⟩
  | .hbm, ⟨43, _⟩ => ⟨S675000x1, .i32⟩
  | .hbm, ⟨44, _⟩ => ⟨S675000, .f32⟩
  | .hbm, ⟨45, _⟩ => ⟨S675000, .f32⟩
  | .hbm, ⟨46, _⟩ => ⟨S50000x128, .f32⟩
  | .hbm, ⟨47, _⟩ => ⟨S_, .i32⟩
  | .hbm, ⟨48, _⟩ => ⟨S675000, .i32⟩
  | .hbm, ⟨49, _⟩ => ⟨S675000, .i1⟩
  | .hbm, ⟨50, _⟩ => ⟨S_, .i32⟩
  | .hbm, ⟨51, _⟩ => ⟨S675000, .i32⟩
  | .hbm, ⟨52, _⟩ => ⟨S675000, .i32⟩
  | .hbm, ⟨53, _⟩ => ⟨S675000, .i32⟩
  | .hbm, ⟨54, _⟩ => ⟨S675000x1, .i32⟩
  | .hbm, ⟨55, _⟩ => ⟨S675000x128, .f32⟩
  | .hbm, ⟨56, _⟩ => ⟨S675000x1, .f32⟩
  | .hbm, ⟨57, _⟩ => ⟨S675000x128, .f32⟩
  | .hbm, ⟨58, _⟩ => ⟨S675000x128, .f32⟩
  | .hbm, ⟨59, _⟩ => ⟨S_, .f32⟩
  | .hbm, ⟨60, _⟩ => ⟨S50000x128, .f32⟩
  | .hbm, ⟨61, _⟩ => ⟨S675000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000, .i32⟩
  | .hbm, ⟨70, _⟩ => ⟨S675000, .i32⟩
  | .hbm, ⟨71, _⟩ => ⟨S675000, .i32⟩
  | .hbm, ⟨72, _⟩ => ⟨S_, .f32⟩
  | .hbm, ⟨73, _⟩ => ⟨S675000, .f32⟩
  | .hbm, ⟨74, _⟩ => ⟨S_, .f32⟩
  | .hbm, ⟨75, _⟩ => ⟨S50000, .f32⟩
  | .hbm, ⟨76, _⟩ => ⟨S675000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S675000, .i32⟩
  | .hbm, ⟨88, _⟩ => ⟨S675000, .i1⟩
  | .hbm, ⟨89, _⟩ => ⟨S_, .i32⟩
  | .hbm, ⟨90, _⟩ => ⟨S675000, .i32⟩
  | .hbm, ⟨91, _⟩ => ⟨S675000, .i32⟩
  | .hbm, ⟨92, _⟩ => ⟨S675000, .i32⟩
  | .hbm, ⟨93, _⟩ => ⟨S675000x1, .i32⟩
  | .hbm, ⟨94, _⟩ => ⟨S675000, .f32⟩
  | .hbm, ⟨95, _⟩ => ⟨S_, .i32⟩
  | .hbm, ⟨96, _⟩ => ⟨S675000, .i32⟩
  | .hbm, ⟨97, _⟩ => ⟨S675000, .i1⟩
  | .hbm, ⟨98, _⟩ => ⟨S_, .i32⟩
  | .hbm, ⟨99, _⟩ => ⟨S675000, .i32⟩
  | .hbm, ⟨100, _⟩ => ⟨S675000, .i32⟩
  | .hbm, ⟨101, _⟩ => ⟨S675000, .i32⟩
  | .hbm, ⟨102, _⟩ => ⟨S675000x1, .i32⟩
  | .hbm, ⟨103, _⟩ => ⟨S675000, .f32⟩
  | .hbm, ⟨104, _⟩ => ⟨S675000, .f32⟩
  | .hbm, ⟨105, _⟩ => ⟨S50000x64, .f32⟩
  | .hbm, ⟨106, _⟩ => ⟨S_, .i32⟩
  | .hbm, ⟨107, _⟩ => ⟨S675000, .i32⟩
  | .hbm, ⟨108, _⟩ => ⟨S675000, .i1⟩
  | .hbm, ⟨109, _⟩ => ⟨S_, .i32⟩
  | .hbm, ⟨110, _⟩ => ⟨S675000, .i32⟩
  | .hbm, ⟨111, _⟩ => ⟨S675000, .i32⟩
  | .hbm, ⟨112, _⟩ => ⟨S675000, .i32⟩
  | .hbm, ⟨113, _⟩ => ⟨S675000x1, .i32⟩
  | .hbm, ⟨114, _⟩ => ⟨S675000x64, .f32⟩
  | .hbm, ⟨115, _⟩ => ⟨S675000x1, .f32⟩
  | .hbm, ⟨116, _⟩ => ⟨S675000x64, .f32⟩
  | .hbm, ⟨117, _⟩ => ⟨S675000x64, .f32⟩
  | .hbm, ⟨118, _⟩ => ⟨S_, .f32⟩
  | .hbm, ⟨119, _⟩ => ⟨S50000x64, .f32⟩
  | .hbm, ⟨120, _⟩ => ⟨S675000x1, .i32⟩
  | .hbm, ⟨121, _⟩ => ⟨S50000x64, .f32⟩
  | .hbm, ⟨122, _⟩ => ⟨S1x64, .f32⟩
  | .hbm, ⟨123, _⟩ => ⟨S50000x64, .f32⟩
  | .hbm, ⟨124, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  concatenates_S625000_S50000_S675000_d0 : Shape.Concatenates [S625000, S50000] S675000 0
  bcast_S_S675000 : S_.BroadcastsInDim S675000 (![] : Fin 0 → Fin S675000.rank)
  bcast_S_S50000 : S_.BroadcastsInDim S50000 (![] : Fin 0 → Fin S50000.rank)
  bcast_S675000_S675000x1_0 : S675000.BroadcastsInDim S675000x1 (![0] : Fin 1 → Fin S675000x1.rank)
  bcast_S675000x1_S675000x128_0_1 : S675000x1.BroadcastsInDim S675000x128 (![0, 1] : Fin 2 → Fin S675000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S675000x1_S675000x64_0_1 : S675000x1.BroadcastsInDim S675000x64 (![0, 1] : Fin 2 → Fin S675000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S675000x1_S675000_n_0_0_1_wf : ScatterDims.WF S50000 S675000x1 S675000 [] [0] [0] 1
  gather_S50000_S675000x1_S675000_n_0_n_n_0_1_1_wf : GatherDims.WF S50000 S675000x1 S675000 [] [0] [] [0] [] 1 ![1]
  dot_S50000x128_S128x128_S50000x128_1_0_0_1_n_n_wf : DotDims.WF S50000x128 S128x128 S50000x128 [1] [0] [0] [1] [] []
  gather_S50000x128_S675000x1_S675000x128_1_0_n_n_0_1_1128_wf : GatherDims.WF S50000x128 S675000x1 S675000x128 [1] [0] [] [0] [] 1 ![1, 128]
  scatter_S50000x128_S675000x1_S675000x128_1_0_0_1_wf : ScatterDims.WF S50000x128 S675000x1 S675000x128 [1] [0] [0] 1
  dot_S50000x128_S128x64_S50000x64_1_0_0_1_n_n_wf : DotDims.WF S50000x128 S128x64 S50000x64 [1] [0] [0] [1] [] []
  gather_S50000x64_S675000x1_S675000x64_1_0_n_n_0_1_164_wf : GatherDims.WF S50000x64 S675000x1 S675000x64 [1] [0] [] [0] [] 1 ![1, 64]
  scatter_S50000x64_S675000x1_S675000x64_1_0_0_1_wf : ScatterDims.WF S50000x64 S675000x1 S675000x64 [1] [0] [0] 1

variable [Facts₀]

def scatter_S50000_S675000x1_S675000_n_0_0_1 : ScatterDims S50000 S675000x1 S675000 where
  updateWindowDims := []
  insertedWindowDims := [0]
  scatterDimsToOperandDims := [0]
  indexVectorDim := 1
  wf := scatter_S50000_S675000x1_S675000_n_0_0_1_wf
def gather_S50000_S675000x1_S675000_n_0_n_n_0_1_1 : GatherDims S50000 S675000x1 S675000 where
  offsetDims := []
  collapsedSliceDims := [0]
  operandBatchingDims := []
  startIndicesBatchingDims := []
  startIndexMap := [0]
  indexVectorDim := 1
  sliceSizes := ![1]
  wf := gather_S50000_S675000x1_S675000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S675000x1_S675000x128_1_0_n_n_0_1_1128 : GatherDims S50000x128 S675000x1 S675000x128 where
  offsetDims := [1]
  collapsedSliceDims := [0]
  operandBatchingDims := []
  startIndicesBatchingDims := []
  startIndexMap := [0]
  indexVectorDim := 1
  sliceSizes := ![1, 128]
  wf := gather_S50000x128_S675000x1_S675000x128_1_0_n_n_0_1_1128_wf
def scatter_S50000x128_S675000x1_S675000x128_1_0_0_1 : ScatterDims S50000x128 S675000x1 S675000x128 where
  updateWindowDims := [1]
  insertedWindowDims := [0]
  scatterDimsToOperandDims := [0]
  indexVectorDim := 1
  wf := scatter_S50000x128_S675000x1_S675000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S675000x1_S675000x64_1_0_n_n_0_1_164 : GatherDims S50000x64 S675000x1 S675000x64 where
  offsetDims := [1]
  collapsedSliceDims := [0]
  operandBatchingDims := []
  startIndicesBatchingDims := []
  startIndexMap := [0]
  indexVectorDim := 1
  sliceSizes := ![1, 64]
  wf := gather_S50000x64_S675000x1_S675000x64_1_0_n_n_0_1_164_wf
def scatter_S50000x64_S675000x1_S675000x64_1_0_0_1 : ScatterDims S50000x64 S675000x1 S675000x64 where
  updateWindowDims := [1]
  insertedWindowDims := [0]
  scatterDimsToOperandDims := [0]
  indexVectorDim := 1
  wf := scatter_S50000x64_S675000x1_S675000x64_1_0_0_1_wf

class Facts : Prop extends Facts₀ where

variable [Facts]
-- ==== Proof.KernelRun.lean ====
/-
  The idealized kernel's run with its result named.

  @main is five segments: a stretch of host operations, the first product's grid, a second stretch, the second
  product's grid, a last stretch. The buffer contents at each boundary are a fold from the launch memory (`W0` … `W5`):
  a stretch applies its operations, a grid leaves its output array at what its write-backs leave and every other
  buffer as entered. Every weakly fair execution terminates with every unscoped buffer at the last boundary's
  contents; read at the result's buffer this names the result, `W5 … main_v0`, beside the unchanged arguments.
-/
import proofs.«170453_j40750649704955_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result's buffer at the last boundary's
    contents and the argument arrays as launched: the launch over the five segments, the last thread state (every
    unscoped buffer at `W5`) read against the final state. -/
theorem run_result : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Run

end
-- ==== Proof.LibGatherScatter.lean ====
/-
  Rows gathered and rows accumulated through a column of indices, read at an index.

  A column of `R` integer words, held as an `R × 1` array, names one row of an `N`-row array for each of `R` positions.
  Gathering rows through it reads, at position `e`, row `clamp(word e)` of the operand: the word is read as a signed
  integer and clamped into `[0, N − 1]`. Accumulating rows through it adds the update's row `e` into row `word e` of
  the operand when the word, read signed, lies in `[0, N)`, and drops it otherwise (no clamping). At the exact values the
  accumulated array holds, at `(n, q)`, the operand's entry plus the sum of the updates' entries `(e, q)` over the
  positions `e` whose word names row `n`. The same for a length-`N` vector gathered or accumulated through the column.
  For any extents; the printed records with these lists are these by reflexivity.
-/
import Idealize.ShloMosaic.PureOps.Ideal
import Idealize.ShloMosaic.Lib.ValueIdx
import Idealize.ShloMosaic.Lib.Pipeline.Value

noncomputable section

open scoped BigOperators

namespace Cert.Lib.GatherScatter

open Idealize.ShloMosaic Idealize.ShloMosaic.ValueIdx

variable {N C R w : Nat}

/-- The word the column holds for position `e`, read as a signed integer. -/
def colInt (idx : IVec ⟨2, ![R, 1]⟩ w) (e : Fin R) : Int := (idx (ix2 e (0 : Fin 1))).toInt

/-- The row a gather reads for position `e`: the word read signed and clamped into `[0, N − 1]`. -/
def gatherRow (hN : 0 < N) (idx : IVec ⟨2, ![R, 1]⟩ w) (e : Fin R) : Fin N :=
  ⟨min (colInt idx e).toNat (N - 1), by omega⟩

/-- The row an accumulation lands on for position `e`: the word read signed when it lies in `[0, N)`, none otherwise. -/
def scatterRow (N : Nat) (idx : IVec ⟨2, ![R, 1]⟩ w) (e : Fin R) : Option (Fin N) :=
  if h : 0 ≤ colInt idx e ∧ colInt idx e < (N : Int) then some ⟨(colInt idx e).toNat, by omega⟩ else none

/-- A position whose word names row `n` for the accumulation names the same row for a gather. -/
theorem gatherRow_of_scatterRow (hN : 0 < N) (idx : IVec ⟨2, ![R, 1]⟩ w) (e : Fin R) (n : Fin N)
    (h : scatterRow N idx e = some n) : gatherRow hN idx e = n := by
  unfold scatterRow at h
  split at h
  · rename_i hr
    have := Option.some.inj h
    subst this
    refine Fin.ext ?_
    show min (colInt idx e).toNat (N - 1) = (colInt idx e).toNat
    omega
  · exact absurd h (by simp)

/-- An axis is kept exactly when it is not among the removed ones. -/
theorem mem_kept {s : Shape} (axes : List (Fin s.rank)) (a : Fin s.rank) : a ∈ s.kept axes ↔ a ∉ axes := by
  simp [Shape.kept, List.mem_filter, List.mem_finRange]

/-- Two rank-2 indices are equal exactly when their coordinates are. -/
theorem ix2_inj {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- A length-`R` vector laid out as an `R × 1` column reads, at `(e, ·)`, the vector at `e`. -/
theorem column_apply {α : Type} (v : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h v (ix2 e u) = v (ix1 e) := by
  refine broadcastInDim_apply _ h v (ix2 e u) (ix1 e) fun ax => ?_
  match ax with
  | ⟨0, _⟩ =>
    show e.val = if R = 1 then 0 else e.val
    split
    · have := e.isLt; omega
    · rfl

/-! ## Gathering rows -/

/-- The dimension numbers of a row gather `[N, C]` through an `R × 1` column, result `[R, C]`. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(e, q)`: the operand at `(row e, q)`. -/
theorem rowGather_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (q : Fin C) :
    Host.gather (rowGatherDims N C R wf) x idx (ix2 e q) = x (ix2 (gatherRow hN idx e) q) := by
  unfold Host.gather
  congr 1
  funext a
  refine Fin.ext ?_
  match a with
  | ⟨0, _⟩ =>
    show (rowGatherDims N C R wf).start (ix2 e q) idx 0 + (rowGatherDims N C R wf).batchCoord (ix2 e q) 0
      + (rowGatherDims N C R wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 e q) ⟨List.idxOf (0 : Fin 2) (rowGatherDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C R wf).start (ix2 e q) idx 1 + (rowGatherDims N C R wf).batchCoord (ix2 e q) 1
      + (rowGatherDims N C R wf).offCoord (ix2 e q) 1 = q.val
    rw [GatherDims.batchCoord_eq_zero _ _ _ List.not_mem_nil]
    have hs : (rowGatherDims N C R wf).start (ix2 e q) idx 1 = 0 := by
      unfold GatherDims.start
      rw [dif_neg (show ¬ (1 : Fin 2) ∈ (rowGatherDims N C R wf).startIndexMap from
        fun h => absurd (show (1 : Fin 2) = 0 from List.mem_singleton.mp h) (by decide))]
    rw [hs]
    simp only [Nat.add_zero, Nat.zero_add]
    rfl

/-! ## Gathering entries of a vector -/

/-- The dimension numbers of a gather from a length-`N` vector through an `R × 1` column, result `[R]`. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The vector gather at `e`: the operand at `row e`. -/
theorem vecGather_apply {α : Type} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (gatherRow hN idx e)) := by
  unfold Host.gather
  congr 1
  funext a
  refine Fin.ext ?_
  match a with
  | ⟨0, _⟩ =>
    show (vecGatherDims N R wf).start (ix1 e) idx 0 + (vecGatherDims N R wf).batchCoord (ix1 e) 0
      + (vecGatherDims N R wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 e) ⟨List.idxOf (0 : Fin 1) (vecGatherDims N R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## Accumulating rows -/

/-- The dimension numbers of a row accumulation into `[N, C]` through an `R × 1` column, updates `[R, C]`. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section RowScatter
variable (wf : ScatterDims.WF ⟨2, ![N, C]⟩ ⟨2, ![R, 1]⟩ ⟨2, ![R, C]⟩ [1] [0] [0] 1)

theorem rowScatter_start0 (idx : IVec ⟨2, ![R, 1]⟩ w) (e : Fin R) (q : Fin C) :
    (rowScatterDims N C R wf).start (ix2 e q) idx 0 = colInt idx e := by
  unfold ScatterDims.start
  rw [dif_pos (show (0 : Fin 2) ∈ (rowScatterDims N C R wf).scatterDimsToOperandDims from List.mem_singleton.mpr rfl)]
  have hsi : (rowScatterDims N C R wf).siIdx (ix2 e q) ⟨List.idxOf (0 : Fin 2) (rowScatterDims N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rowScatter_start1 (idx : IVec ⟨2, ![R, 1]⟩ w) (e : Fin R) (q : Fin C) :
    (rowScatterDims N C R wf).start (ix2 e q) idx 1 = 0 := by
  unfold ScatterDims.start
  rw [dif_neg (show ¬ (1 : Fin 2) ∈ (rowScatterDims N C R wf).scatterDimsToOperandDims from
    fun h => absurd (show (1 : Fin 2) = 0 from List.mem_singleton.mp h) (by decide))]

theorem rowScatter_window0 (e : Fin R) (q : Fin C) : (rowScatterDims N C R wf).window (ix2 e q) 0 = 0 := by
  unfold ScatterDims.window
  rw [dif_neg (show ¬ (0 : Fin 2) ∈ (rowScatterDims N C R wf).sKept from
    fun h => (mem_kept _ _).mp h (List.mem_singleton.mpr rfl))]

theorem rowScatter_window1 (e : Fin R) (q : Fin C) : (rowScatterDims N C R wf).window (ix2 e q) 1 = q.val := by
  unfold ScatterDims.window
  rw [dif_pos (show (1 : Fin 2) ∈ (rowScatterDims N C R wf).sKept from
    (mem_kept _ _).mpr fun h => absurd (show (1 : Fin 2) = 0 from List.mem_singleton.mp h) (by decide))]
  rfl

/-- Where the update's entry `(e, q)` lands: at `(row e, q)` when the word names a row, nowhere otherwise. -/
theorem rowScatter_resultIdx (idx : IVec ⟨2, ![R, 1]⟩ w) (e : Fin R) (q : Fin C) :
    (rowScatterDims N C R wf).resultIdx? (ix2 e q) idx = (scatterRow N idx e).map fun n => ix2 n q := by
  unfold ScatterDims.resultIdx? scatterRow
  by_cases h : 0 ≤ colInt idx e ∧ colInt idx e < (N : Int)
  · have hall : ∀ a, 0 ≤ (rowScatterDims N C R wf).start (ix2 e q) idx a + (rowScatterDims N C R wf).window (ix2 e q) a
        ∧ (rowScatterDims N C R wf).start (ix2 e q) idx a + (rowScatterDims N C R wf).window (ix2 e q) a
          < ((⟨2, ![N, C]⟩ : Shape).size a : Int) := by
      intro a
      match a with
      | ⟨0, _⟩ =>
        rw [show (⟨0, _⟩ : Fin 2) = 0 from rfl, rowScatter_start0, rowScatter_window0]
        show 0 ≤ colInt idx e + ((0 : Nat) : Int) ∧ colInt idx e + ((0 : Nat) : Int) < (N : Int)
        omega
      | ⟨1, _⟩ =>
        rw [show (⟨1, _⟩ : Fin 2) = 1 from rfl, rowScatter_start1, rowScatter_window1]
        show 0 ≤ (0 : Int) + (q.val : Int) ∧ (0 : Int) + (q.val : Int) < (C : Int)
        have := q.isLt
        omega
    rw [dif_pos hall, dif_pos h, Option.map_some]
    congr 1
    funext a
    refine Fin.ext ?_
    match a with
    | ⟨0, _⟩ =>
      show ((rowScatterDims N C R wf).start (ix2 e q) idx 0 + (rowScatterDims N C R wf).window (ix2 e q) 0).toNat = (colInt idx e).toNat
      rw [rowScatter_start0, rowScatter_window0]
      simp
    | ⟨1, _⟩ =>
      show ((rowScatterDims N C R wf).start (ix2 e q) idx 1 + (rowScatterDims N C R wf).window (ix2 e q) 1).toNat = q.val
      rw [rowScatter_start1, rowScatter_window1]
      simp
  · rw [dif_neg h, Option.map_none, dif_neg]
    intro hall
    apply h
    have h0 := hall 0
    rw [rowScatter_start0, rowScatter_window0] at h0
    have h0' : 0 ≤ colInt idx e + ((0 : Nat) : Int) ∧ colInt idx e + ((0 : Nat) : Int) < (N : Int) := h0
    omega

/-- THE ACCUMULATION AT `(n, q)`, at the exact values: the operand's entry plus the updates' entries `(e, q)` over
    the positions `e` whose word names row `n`. -/
theorem rowScatterAdd_apply {φ : FTy} (x : FVec Ideal ⟨2, ![N, C]⟩ φ) (idx : IVec ⟨2, ![R, 1]⟩ w)
    (upd : FVec Ideal ⟨2, ![R, C]⟩ φ) (n : Fin N) (q : Fin C) :
    Host.scatterAdd (rowScatterDims N C R wf) x idx upd (ix2 n q)
      = x (ix2 n q) + ∑ e ∈ Finset.univ.filter (fun e => scatterRow N idx e = some n), upd (ix2 e q) := by
  show Ideal.hostScatterAdd (rowScatterDims N C R wf) x idx upd (ix2 n q) = _
  unfold Ideal.hostScatterAdd
  congr 1
  rw [Finset.sum_filter, sum_idx2, Finset.sum_filter]
  refine Finset.sum_congr rfl fun e _ => ?_
  simp only [rowScatter_resultIdx]
  cases hsr : scatterRow N idx e with
  | none => simp
  | some n' =>
    simp only [Option.map_some, Option.some.injEq, ix2_inj]
    by_cases hn : n' = n
    · subst hn
      simp only [true_and, if_true]
      exact (Finset.sum_ite_eq' Finset.univ q fun c => upd (ix2 e c)).trans (if_pos (Finset.mem_univ q))
    · simp only [hn, false_and, if_false, Finset.sum_const_zero]

end RowScatter

/-! ## Accumulating entries of a vector -/

/-- The dimension numbers of an accumulation into a length-`N` vector through an `R × 1` column, updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

end Cert.Lib.GatherScatter

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.GcnAlgebra.lean ====
/-
  Two graph-convolution layers with the degree normalisation applied per edge, or per node before and after the
  aggregation: the same function on real data.

  A graph convolution sends node features `H` to `n ↦ ∑ over the edges e into n of H(src e) · δ(src e) · δ(dst e)`, where
  `δ` is a per-node weight (the inverse square root of the degree) and "e goes into n" is a partial map from edges to
  nodes (an edge whose target is out of range goes nowhere). One program scales each message by the product
  `δ(src e) · δ(dst e)`; the other scales the rows by `δ` before the aggregation and the aggregated rows by `δ` again
  after it. For an edge into `n` the target's weight is `δ n`, a common factor of the whole sum, so the two agree —
  provided the factor may be moved across the sum, which in the extended reals needs every term to be a real number.
  With real features, weights, biases and node weights every intermediate value is real (a finite sum of products of
  reals, a maximum with zero), and the law is `(∑ a e · c e) · k = ∑ a e · (c e · k)` in the reals.
-/
import Mathlib.Data.EReal.Inv
import Mathlib.Algebra.BigOperators.Ring.Finset
import Mathlib.Tactic.Ring
import proofs.«170453_j40750649704955_2_alg».proof.Proof.LibERealSums

noncomputable section

open scoped BigOperators

namespace Cert.Gcn

open Cert.Lib.ERealSums

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  obtain ⟨a, rfl⟩ := hx; obtain ⟨b, rfl⟩ := hy; exact ⟨Max.max a b, coe_max_real a b⟩

theorem isReal_zero : IsReal 0 := ⟨0, EReal.coe_zero.symm⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

section Conv

variable {ν ε : Type*} [Fintype ε] [DecidableEq ν]

/-- The edges that go into node `n`. -/
def into (tgt : ε → Option ν) (n : ν) : Finset ε := Finset.univ.filter fun e => tgt e = some n

/-- One aggregation with the node weight applied to the rows before it and to the aggregated rows after it. -/
def convNode (δ : ν → EReal) (src : ε → ν) (tgt : ε → Option ν) (H : ν → EReal) (n : ν) : EReal :=
  (0 + ∑ e ∈ into tgt n, H (src e) * δ (src e)) * δ n

/-- One aggregation with each message scaled by the product of its two ends' weights. -/
def convEdge (δ : ν → EReal) (src : ε → ν) (tgt : ε → Option ν) (dg : ε → ν) (H : ν → EReal) (n : ν) : EReal :=
  0 + ∑ e ∈ into tgt n, H (src e) * (δ (src e) * δ (dg e))

variable (δ : ν → EReal) (src : ε → ν) (tgt : ε → Option ν) (dg : ε → ν) (H : ν → EReal)

theorem convEdge_isReal (hδ : ∀ p, IsReal (δ p)) (hH : ∀ p, IsReal (H p)) (n : ν) :
    IsReal (convEdge δ src tgt dg H n) :=
  isReal_zero.add (IsReal.sum _ _ fun e _ => (hH _).mul ((hδ _).mul (hδ _)))

/-- The two aggregations agree on real data when every edge into `n` has target weight `δ n`. -/
theorem convNode_eq_convEdge (hδ : ∀ p, IsReal (δ p)) (hH : ∀ p, IsReal (H p))
    (hdg : ∀ e n, tgt e = some n → dg e = n) (n : ν) :
    convNode δ src tgt H n = convEdge δ src tgt dg H n := by
  choose δ' hδ' using hδ
  choose H' hH' using hH
  unfold convNode convEdge
  have e1 : ∀ e, H (src e) * δ (src e) = ((H' (src e) * δ' (src e) : ℝ) : EReal) := fun e => by
    rw [hH', hδ', EReal.coe_mul]
  have e2 : ∀ e ∈ into tgt n, H (src e) * (δ (src e) * δ (dg e)) = ((H' (src e) * δ' (src e) * δ' n : ℝ) : EReal) :=
    fun e he => by
      rw [hdg e n (Finset.mem_filter.mp he).2, hH', hδ', hδ', ← EReal.coe_mul, ← EReal.coe_mul, mul_assoc]
  rw [Finset.sum_congr rfl e2, Finset.sum_congr rfl fun e _ => e1 e, coe_sum_real, coe_sum_real, zero_add, zero_add,
    hδ' n, ← EReal.coe_mul, Finset.sum_mul]

end Conv

section Layers

variable {ν ε κ φ γ : Type*} [Fintype ε] [Fintype κ] [Fintype φ] [DecidableEq ν]
variable (x : ν → κ → EReal) (W1 : κ → φ → EReal) (b1 : φ → EReal) (W2 : φ → γ → EReal) (b2 : γ → EReal)
variable (δ : ν → EReal) (src : ε → ν) (tgt : ε → Option ν) (dg : ε → ν)

/-- The first dense product, at node `p` and hidden feature `f`. -/
def dense1 (p : ν) (f : φ) : EReal := ∑ k, x p k * W1 k f

/-- The hidden layer when the normalisation is applied per node. -/
def hidNode (m : ν) (f : φ) : EReal := max (convNode δ src tgt (fun p => dense1 x W1 p f) m + b1 f) 0

/-- The hidden layer when the normalisation is applied per edge. -/
def hidEdge (m : ν) (f : φ) : EReal := max (convEdge δ src tgt dg (fun p => dense1 x W1 p f) m + b1 f) 0

/-- The output when the normalisation is applied per node (the second layer's last scaling on the left). -/
def outNode (n : ν) (g : γ) : EReal :=
  δ n * (0 + ∑ e ∈ into tgt n, (∑ f, hidNode x W1 b1 δ src tgt (src e) f * W2 f g) * δ (src e)) + b2 g

/-- The output when the normalisation is applied per edge. -/
def outEdge (n : ν) (g : γ) : EReal :=
  convEdge δ src tgt dg (fun m => ∑ f, hidEdge x W1 b1 δ src tgt dg m f * W2 f g) n + b2 g

variable (hx : ∀ p k, IsReal (x p k)) (hW1 : ∀ k f, IsReal (W1 k f)) (hb1 : ∀ f, IsReal (b1 f))
  (hW2 : ∀ f g, IsReal (W2 f g)) (hδ : ∀ p, IsReal (δ p)) (hdg : ∀ e n, tgt e = some n → dg e = n)

include hx hW1 in
theorem dense1_isReal (p : ν) (f : φ) : IsReal (dense1 x W1 p f) :=
  IsReal.sum _ _ fun k _ => (hx p k).mul (hW1 k f)

include hx hW1 hδ hdg in
theorem hidNode_eq_hidEdge (m : ν) (f : φ) : hidNode x W1 b1 δ src tgt m f = hidEdge x W1 b1 δ src tgt dg m f := by
  unfold hidNode hidEdge
  rw [convNode_eq_convEdge δ src tgt dg _ hδ (fun p => dense1_isReal x W1 hx hW1 p f) hdg m]

include hx hW1 hb1 hδ in
theorem hidEdge_isReal (m : ν) (f : φ) : IsReal (hidEdge x W1 b1 δ src tgt dg m f) :=
  ((convEdge_isReal δ src tgt dg _ hδ (fun p => dense1_isReal x W1 hx hW1 p f) m).add (hb1 f)).max isReal_zero

include hx hW1 hb1 hW2 hδ hdg in
/-- THE LAW: on real data the per-node and the per-edge normalisations give one output. -/
theorem outNode_eq_outEdge (n : ν) (g : γ) :
    outNode x W1 b1 W2 b2 δ src tgt n g = outEdge x W1 b1 W2 b2 δ src tgt dg n g := by
  unfold outNode outEdge
  have hfun : (fun m => ∑ f, hidNode x W1 b1 δ src tgt m f * W2 f g)
      = fun m => ∑ f, hidEdge x W1 b1 δ src tgt dg m f * W2 f g :=
    funext fun m => Finset.sum_congr rfl fun f _ => by rw [hidNode_eq_hidEdge x W1 b1 δ src tgt dg hx hW1 hδ hdg m f]
  have hreal : ∀ m, IsReal (∑ f, hidEdge x W1 b1 δ src tgt dg m f * W2 f g) := fun m =>
    IsReal.sum _ _ fun f _ => (hidEdge_isReal x W1 b1 δ src tgt dg hx hW1 hb1 hδ m f).mul (hW2 f g)
  rw [← convNode_eq_convEdge δ src tgt dg _ hδ hreal hdg n, ← hfun]
  unfold convNode
  exact congrArg (fun t => t + b2 g) (EReal.mul_comm (δ n) _)

end Layers

end Cert.Gcn

end
-- ==== Proof.RefGraph.lean ====
/-
  The graph the two programs read out of the edge list, and the degree normalisation.

  Both programs append a self loop for every node to the edge list's two rows, giving 675000 sources and 675000
  targets. A source word names the row a gather reads: negative words are first shifted by the node count (the
  wrap-around of negative positions), then the word is clamped into the node range. A target word names the row an
  accumulation adds into, when it lies in the node range; otherwise the message is dropped. Where the reference
  gathers the target's weight it reads the target word through the same shift-and-clamp; for a word in the node range
  the shift does nothing and the clamp is the identity, so an edge that goes into node `n` reads node `n`'s weight.
  The weight is `1/√deg` where the degree is positive and zero elsewhere: a real number whatever the degree is, since
  the reciprocal square root of a positive extended real is a real (of `+∞` it is 0).
-/
import proofs.«170453_j40750649704955_2_alg».proof.Proof.RefRead
import proofs.«170453_j40750649704955_2_alg».proof.Proof.LibGatherScatter
import proofs.«170453_j40750649704955_2_alg».proof.Proof.GcnAlgebra
import Idealize.ShloMosaic.Lib.IdealHost

noncomputable section

namespace Cert.Graph

open Cert.ReferenceIdeal Cert.ReferenceIdeal.Gen Cert.ReferenceIdeal.ReadP
open Idealize.ShloMosaic Idealize.ShloMosaic.ValueIdx Cert.Lib.GatherScatter Cert.Gcn

/-- The edge list: two rows of 625000 integer words. -/
abbrev Edges : Type := (⟨S2x625000, .i32⟩ : BufTy).Contents (Elt Ideal)

/-- The column of source words, negative ones shifted by the node count. -/
def srcCol (x1 : Edges) : IVec S675000x1 32 := val_main_v20 (F := Ideal) x1
/-- The column of target words, as the accumulations read them. -/
def tgtCol (x1 : Edges) : IVec S675000x1 32 := val_main_v9 (F := Ideal) x1
/-- The column of target words, negative ones shifted by the node count, as the reference's weight gather reads them. -/
def tgtColG (x1 : Edges) : IVec S675000x1 32 := val_main_v27 (F := Ideal) x1
/-- The node weights `1/√deg` (zero where the degree is not positive). -/
def dinv (x1 : Edges) : FVec Ideal S50000 .f32 := val_main_v14 (F := Ideal) x1

theorem nodes_pos : 0 < 50000 := by decide

/-- A rank-2 array as a function of its two coordinates. -/
def mat {n0 n1 : Nat} (a : (⟨2, ![n0, n1]⟩ : Shape).Idx → EReal) (p : Fin n0) (q : Fin n1) : EReal := a (ix2 p q)
/-- A rank-1 array as a function of its coordinate. -/
def vec {n0 : Nat} (v : (⟨1, ![n0]⟩ : Shape).Idx → EReal) (q : Fin n0) : EReal := v (ix1 q)

/-- The node a gather reads for edge `e`. -/
def src (x1 : Edges) (e : Fin 675000) : Fin 50000 := gatherRow nodes_pos (srcCol x1) e
/-- The node edge `e` goes into, if any. -/
def tgt (x1 : Edges) (e : Fin 675000) : Option (Fin 50000) := scatterRow 50000 (tgtCol x1) e
/-- The node whose weight the reference gathers for edge `e`'s target. -/
def dg (x1 : Edges) (e : Fin 675000) : Fin 50000 := gatherRow nodes_pos (tgtColG x1) e
/-- The weight of node `p`. -/
def δ (x1 : Edges) (p : Fin 50000) : EReal := dinv x1 (ix1 p)

/-- The target word of edge `e`. -/
theorem tgtCol_apply (x1 : Edges) (e : Fin 675000) :
    tgtCol x1 (ix2 e (0 : Fin 1)) = val_main_v6 (F := Ideal) x1 (ix1 e) := by
  unfold tgtCol
  rw [val_main_v9_apply]
  exact congrArg _ (funext fun a => match a with | ⟨0, _⟩ => rfl)

/-- The target word of edge `e` as the weight gather reads it: shifted when negative. -/
theorem tgtColG_apply (x1 : Edges) (e : Fin 675000) :
    tgtColG x1 (ix2 e (0 : Fin 1))
      = Scalar.select (IntOp.cmpi .slt (val_main_v6 (F := Ideal) x1 (ix1 e)) 0#32)
          (IntOp.addi (val_main_v6 (F := Ideal) x1 (ix1 e)) 50000#32) (val_main_v6 (F := Ideal) x1 (ix1 e)) := by
  unfold tgtColG
  have hi : idx_main_v27 (ix2 e (0 : Fin 1)) = ix1 e := funext fun a => match a with | ⟨0, _⟩ => rfl
  rw [val_main_v27_apply, hi, val_main_v26_apply, val_main_v23_apply, val_main_v25_apply, val_main_v22_apply,
    val_main_v24_apply, val_main_c_4_apply, val_main_c_5_apply]

/-- A word that is not negative is not below zero in the signed order. -/
theorem cmpi_slt_zero_of_nonneg (d : BitVec 32) (h : 0 ≤ d.toInt) : IntOp.cmpi .slt d 0#32 = 0#1 := by
  unfold IntOp.cmpi
  have : d.slt 0#32 = false := by
    rw [BitVec.slt]
    simp only [BitVec.toInt_zero, decide_eq_false_iff_not, not_lt]
    exact h
  show BitVec.ofBool (d.slt 0#32) = 0#1
  rw [this]
  rfl

/-- The target word of an edge that goes into a node is not negative. -/
theorem tgt_nonneg (x1 : Edges) (e : Fin 675000) (n : Fin 50000) (h : tgt x1 e = some n) :
    0 ≤ (val_main_v6 (F := Ideal) x1 (ix1 e)).toInt := by
  rw [← tgtCol_apply]
  unfold tgt scatterRow at h
  by_cases hr : 0 ≤ colInt (tgtCol x1) e ∧ colInt (tgtCol x1) e < ((50000 : Nat) : Int)
  · exact hr.1
  · rw [dif_neg hr] at h
    exact absurd h (by simp)

/-- For such an edge the shifted word is the word itself. -/
theorem tgtColG_eq_tgtCol (x1 : Edges) (e : Fin 675000) (n : Fin 50000) (h : tgt x1 e = some n) :
    colInt (tgtColG x1) e = colInt (tgtCol x1) e := by
  unfold colInt
  rw [tgtCol_apply, tgtColG_apply, cmpi_slt_zero_of_nonneg _ (tgt_nonneg x1 e n h), select_zero]

/-- AN EDGE INTO NODE `n` READS NODE `n`'S WEIGHT. -/
theorem dg_of_tgt (x1 : Edges) (e : Fin 675000) (n : Fin 50000) (h : tgt x1 e = some n) : dg x1 e = n := by
  have hn : gatherRow nodes_pos (tgtCol x1) e = n := gatherRow_of_scatterRow nodes_pos (tgtCol x1) e n h
  have hc := tgtColG_eq_tgtCol x1 e n h
  refine Eq.trans (Fin.ext ?_) hn
  show min (colInt (tgtColG x1) e).toNat (50000 - 1) = min (colInt (tgtCol x1) e).toNat (50000 - 1)
  rw [hc]

/-- The weight of every node is a real number. -/
theorem δ_isReal (x1 : Edges) (p : Fin 50000) : IsReal (δ x1 p) := by
  unfold δ dinv
  rw [val_main_v14_apply, val_main_v12_apply, val_main_v13_apply, val_main_call0_v1_apply, val_main_call0_v0_apply,
    val_main_cst_2_apply, val_main_v11_apply, val_main_cst_1_apply]
  generalize val_main_v10 (F := Ideal) x1 (ix1 p) = d
  rw [Ideal.ofBits_def, Ideal.ofBits_zero_f32, Ideal.hostUnary_rsqrt_def]
  show IsReal (Scalar.select (Ideal.cmp .ogt d 0) (Ideal.rsqrt d) 0)
  by_cases h : (0 : EReal) < d
  · have hb : Ideal.cmp .ogt d 0 = 1#1 := by
      show BitVec.ofBool (decide ((0 : EReal) < d)) = 1#1
      rw [decide_eq_true h]; rfl
    rw [hb, select_one]
    induction d using EReal.rec with
    | bot => exact absurd h (by simp)
    | top => exact ⟨0, by rw [Ideal.rsqrt_top]; rfl⟩
    | coe r =>
      have hr : 0 < r := by exact_mod_cast h
      refine ⟨(Real.sqrt r)⁻¹, ?_⟩
      rw [Ideal.rsqrt_coe, if_neg (not_lt.mpr hr.le), if_neg hr.ne']
  · have hb : Ideal.cmp .ogt d 0 = 0#1 := by
      show BitVec.ofBool (decide ((0 : EReal) < d)) = 0#1
      rw [decide_eq_false h]; rfl
    rw [hb, select_zero]
    exact isReal_zero

end Cert.Graph

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.RefValue.lean ====
/-
  The reference's result, read at an index: two graph convolutions with the normalisation applied per edge.

  At node `n` and output feature `g` the reference's result is the second layer's bias plus the sum, over the edges
  `e` into `n`, of the second dense product at the source node times the product of the two ends' weights; the second
  dense product is taken of the hidden layer, the maximum with zero of the first layer's value, which has the same
  shape over the first dense product `x · W1`. Each accumulation is read as its exact sum over the edges that land
  on the node, each gather at the row its index word names, each dense product as a sum over the contracted axis.
  The second layer recomputes the edge columns and the node weights from the edge list; they are the same terms.
-/
import proofs.«170453_j40750649704955_2_alg».proof.Proof.RefGraph
import proofs.«170453_j40750649704955_2_alg».proof.Proof.LibPlainDot

noncomputable section

open scoped BigOperators

namespace Cert.RefValue

open Cert.ReferenceIdeal Cert.ReferenceIdeal.Gen Cert.ReferenceIdeal.ReadP
open Idealize.ShloMosaic Idealize.ShloMosaic.ValueIdx Cert.Lib.GatherScatter Cert.Gcn Cert.Graph Cert.Lib

/-! ## The gathers and accumulations of this program, read at an index -/

theorem vgather (a : FVec Ideal S50000 .f32) (idx : IVec S675000x1 32) (e : Fin 675000) :
    Host.gather gather_S50000_S675000x1_S675000_n_0_n_n_0_1_1 a idx (ix1 e) = a (ix1 (gatherRow nodes_pos idx e)) :=
  vecGather_apply (N := 50000) (R := 675000) nodes_pos gather_S50000_S675000x1_S675000_n_0_n_n_0_1_1_wf a idx e

theorem rgather128 (a : FVec Ideal S50000x128 .f32) (idx : IVec S675000x1 32) (e : Fin 675000) (q : Fin 128) :
    Host.gather gather_S50000x128_S675000x1_S675000x128_1_0_n_n_0_1_1128 a idx (ix2 e q)
      = a (ix2 (gatherRow nodes_pos idx e) q) :=
  rowGather_apply (N := 50000) (C := 128) (R := 675000) nodes_pos
    gather_S50000x128_S675000x1_S675000x128_1_0_n_n_0_1_1128_wf a idx e q

theorem rgather64 (a : FVec Ideal S50000x64 .f32) (idx : IVec S675000x1 32) (e : Fin 675000) (q : Fin 64) :
    Host.gather gather_S50000x64_S675000x1_S675000x64_1_0_n_n_0_1_164 a idx (ix2 e q)
      = a (ix2 (gatherRow nodes_pos idx e) q) :=
  rowGather_apply (N := 50000) (C := 64) (R := 675000) nodes_pos
    gather_S50000x64_S675000x1_S675000x64_1_0_n_n_0_1_164_wf a idx e q

theorem rscatter128 (z : FVec Ideal S50000x128 .f32) (idx : IVec S675000x1 32) (u : FVec Ideal S675000x128 .f32)
    (n : Fin 50000) (q : Fin 128) :
    Host.scatterAdd scatter_S50000x128_S675000x1_S675000x128_1_0_0_1 z idx u (ix2 n q)
      = z (ix2 n q) + ∑ e ∈ Finset.univ.filter (fun e => scatterRow 50000 idx e = some n), u (ix2 e q) :=
  rowScatterAdd_apply (N := 50000) (C := 128) (R := 675000) scatter_S50000x128_S675000x1_S675000x128_1_0_0_1_wf z idx u n q

theorem rscatter64 (z : FVec Ideal S50000x64 .f32) (idx : IVec S675000x1 32) (u : FVec Ideal S675000x64 .f32)
    (n : Fin 50000) (q : Fin 64) :
    Host.scatterAdd scatter_S50000x64_S675000x1_S675000x64_1_0_0_1 z idx u (ix2 n q)
      = z (ix2 n q) + ∑ e ∈ Finset.univ.filter (fun e => scatterRow 50000 idx e = some n), u (ix2 e q) :=
  rowScatterAdd_apply (N := 50000) (C := 64) (R := 675000) scatter_S50000x64_S675000x1_S675000x64_1_0_0_1_wf z idx u n q

/-! ## The edge columns and the weights, recomputed: the same terms -/

variable (x1 : Edges)

theorem v36_eq : val_main_v36 (F := Ideal) x1 = srcCol x1 := rfl
theorem v42_eq : val_main_v42 (F := Ideal) x1 = tgtCol x1 := rfl
theorem v64_eq : val_main_v64 (F := Ideal) x1 = srcCol x1 := rfl
theorem v80_eq : val_main_v80 (F := Ideal) x1 = srcCol x1 := rfl
theorem v71_eq : val_main_v71 (F := Ideal) x1 = tgtColG x1 := rfl
theorem v86_eq : val_main_v86 (F := Ideal) x1 = tgtCol x1 := rfl
theorem v58_eq : val_main_v58 (F := Ideal) x1 = dinv x1 := rfl

/-- The first layer's edge weight: the product of the two ends' node weights. -/
theorem norm1_value (e : Fin 675000) :
    val_main_v29 (F := Ideal) x1 (ix1 e) = δ x1 (src x1 e) * δ x1 (dg x1 e) := by
  rw [val_main_v29_apply]
  show val_main_v21 (F := Ideal) x1 (ix1 e) * val_main_v28 (F := Ideal) x1 (ix1 e) = _
  unfold val_main_v21 val_main_v28
  rw [vgather, vgather]
  rfl

/-- The second layer's edge weight: the same product. -/
theorem norm2_value (e : Fin 675000) :
    val_main_v73 (F := Ideal) x1 (ix1 e) = δ x1 (src x1 e) * δ x1 (dg x1 e) := by
  rw [val_main_v73_apply]
  show val_main_v65 (F := Ideal) x1 (ix1 e) * val_main_v72 (F := Ideal) x1 (ix1 e) = _
  unfold val_main_v65 val_main_v72
  rw [vgather, vgather, v58_eq, v64_eq, v71_eq]
  rfl

variable (x0 : FVec Ideal S50000x128 .f32) (x2 : FVec Ideal S128x128 .f32) (x3 : FVec Ideal S128 .f32)
  (x4 : FVec Ideal S128x64 .f32) (x5 : FVec Ideal S64 .f32)

/-- THE HIDDEN LAYER at node `m`, feature `f`. -/
theorem hidden_value (m : Fin 50000) (f : Fin 128) :
    val_main_v47 (F := Ideal) x0 x1 x2 x3 (ix2 m f)
      = hidEdge (mat x0) (mat x2) (vec x3) (δ x1) (src x1) (tgt x1) (dg x1) m f := by
  unfold hidEdge convEdge into dense1
  rw [val_main_v47_apply]
  show max (val_main_v46 (F := Ideal) x0 x1 x2 x3 (ix2 m f)) (val_main_call1_v0 (F := Ideal) (ix2 m f)) = _
  rw [val_main_call1_v0_apply, val_main_call1_cst_apply, Ideal.ofBits_def, Ideal.ofBits_zero_f32, val_main_v46_apply]
  show max (val_main_v43 (F := Ideal) x0 x1 x2 (ix2 m f) + val_main_v45 (F := Ideal) x3 (ix2 m f)) 0 = _
  have h45 : val_main_v45 (F := Ideal) x3 (ix2 m f) = vec x3 f := by
    rw [val_main_v45_apply, val_main_v44_apply]
    exact congrArg x3 (funext fun a => match a with | ⟨0, _⟩ => rfl)
  have h43 : val_main_v43 (F := Ideal) x0 x1 x2 (ix2 m f)
      = 0 + ∑ e ∈ Finset.univ.filter (fun e => tgt x1 e = some m),
          (∑ k, mat x0 (src x1 e) k * mat x2 k f) * (δ x1 (src x1 e) * δ x1 (dg x1 e)) := by
    unfold val_main_v43
    rw [rscatter128, v42_eq]
    refine congrArg₂ (· + ·) ?_ (Finset.sum_congr rfl fun e _ => ?_)
    · rw [val_main_v41_apply, val_main_cst_8_apply, Ideal.ofBits_def, Ideal.ofBits_zero_f32]
    · rw [val_main_v40_apply]
      show val_main_v37 (F := Ideal) x0 x1 x2 (ix2 e f) * val_main_v39 (F := Ideal) x1 (ix2 e f) = _
      refine congrArg₂ (· * ·) ?_ ?_
      · unfold val_main_v37
        rw [rgather128, v36_eq]
        unfold val_main_v30
        exact PlainDot.dotGeneral_apply dot_S50000x128_S128x128_S50000x128_1_0_0_1_n_n_wf none x0 x2 _ f
      · rw [val_main_v39_apply, val_main_v38_apply]
        have hi : idx_main_v38 (idx_main_v39 (ix2 e f)) = ix1 e := funext fun a => match a with | ⟨0, _⟩ => rfl
        rw [hi]
        exact norm1_value x1 e
  rw [h43, h45]

/-- THE REFERENCE'S RESULT at node `n`, feature `g`. -/
theorem result_value (n : Fin 50000) (g : Fin 64) :
    val_main_v90 (F := Ideal) x0 x1 x2 x3 x4 x5 (ix2 n g)
      = outEdge (mat x0) (mat x2) (vec x3) (mat x4) (vec x5) (δ x1) (src x1) (tgt x1) (dg x1) n g := by
  unfold outEdge convEdge into
  rw [val_main_v90_apply]
  show val_main_v87 (F := Ideal) x0 x1 x2 x3 x4 (ix2 n g) + val_main_v89 (F := Ideal) x5 (ix2 n g) = _
  have h89 : val_main_v89 (F := Ideal) x5 (ix2 n g) = vec x5 g := by
    rw [val_main_v89_apply, val_main_v88_apply]
    exact congrArg x5 (funext fun a => match a with | ⟨0, _⟩ => rfl)
  have h87 : val_main_v87 (F := Ideal) x0 x1 x2 x3 x4 (ix2 n g)
      = 0 + ∑ e ∈ Finset.univ.filter (fun e => tgt x1 e = some n),
          (∑ f, hidEdge (mat x0) (mat x2) (vec x3) (δ x1) (src x1) (tgt x1) (dg x1) (src x1 e) f * mat x4 f g)
            * (δ x1 (src x1 e) * δ x1 (dg x1 e)) := by
    unfold val_main_v87
    rw [rscatter64, v86_eq]
    refine congrArg₂ (· + ·) ?_ (Finset.sum_congr rfl fun e _ => ?_)
    · rw [val_main_v85_apply, val_main_cst_19_apply, Ideal.ofBits_def, Ideal.ofBits_zero_f32]
    · rw [val_main_v84_apply]
      show val_main_v81 (F := Ideal) x0 x1 x2 x3 x4 (ix2 e g) * val_main_v83 (F := Ideal) x1 (ix2 e g) = _
      refine congrArg₂ (· * ·) ?_ ?_
      · unfold val_main_v81
        rw [rgather64, v80_eq]
        unfold val_main_v74
        refine (PlainDot.dotGeneral_apply dot_S50000x128_S128x64_S50000x64_1_0_0_1_n_n_wf none _ x4 _ g).trans ?_
        refine Finset.sum_congr rfl fun f _ => ?_
        rw [hidden_value]
        rfl
      · rw [val_main_v83_apply, val_main_v82_apply]
        have hi : idx_main_v82 (idx_main_v83 (ix2 e g)) = ix1 e := funext fun a => match a with | ⟨0, _⟩ => rfl
        rw [hi]
        exact norm2_value x1 e
  rw [h87, h89]

end Cert.RefValue

end
-- ==== Proof.KOps.lean ====
/-
  The idealized kernel's three stretches of host operations, spelt over plain references.

  The program's host operations are written inside a called function, over references that carry the type of the
  value they hold; each applies its function between two transports along the equation "the carried type is the
  reference's own type". At the call's literal buffers that equation holds by computation and the transports are the
  identity, so each operation is the plain operation at the same buffers with the same function. The lists below
  spell the stretches that way, operation by operation in the program's order; the first stretch is cut after the two
  edge columns (its first seven operations), so that what follows can be read from the columns by name.
-/
import proofs.«170453_j40750649704955_2_alg».proof.Proof.Gen.KernelIdeal.Launch
import Idealize.ShloMosaic.Lib.StableHlo.Run

set_option maxRecDepth 16384

noncomputable section

namespace Cert.KernelIdeal.Plain

open Cert.KernelIdeal Cert.KernelIdeal.Gen
open Idealize.ShloMosaic Idealize.ShloMosaic.TcCoe Idealize.SL.Sem Idealize.ShloMosaic.StableHlo

variable {F : FTy → Type} [FloatOps F]

/-- The first seven operations: the two rows of the edge list, the self loops, the two edge columns. -/
abbrev ops0a : List (HloOp τ sig (Elt F)) :=
  [ unary main_arg1 main_call0_v0 ((extractStridedSlice S1x625000 ![0, 0] · slices_S2x625000_S1x625000_0_0) : (⟨S2x625000, .i32⟩ : BufTy).Contents (Elt F) → (⟨S1x625000, .i32⟩ : BufTy).Contents (Elt F)),
    reshape main_call0_v0 main_call0_v1 rfl shapeCasts_S1x625000_S625000,
    unary main_arg1 main_call0_v2 ((extractStridedSlice S1x625000 ![1, 0] · slices_S2x625000_S1x625000_1_0) : (⟨S2x625000, .i32⟩ : BufTy).Contents (Elt F) → (⟨S1x625000, .i32⟩ : BufTy).Contents (Elt F)),
    reshape main_call0_v2 main_call0_v3 rfl shapeCasts_S1x625000_S625000,
    nullary main_call0_v4 ((iotaInDim S50000 32 0) : (⟨S50000, .i32⟩ : BufTy).Contents (Elt F)),
    binary main_call0_v1 main_call0_v4 main_call0_v5 ((fun a b => concatenate S675000 0 [⟨S625000, a⟩, ⟨S50000, b⟩] concatenates_S625000_S50000_S675000_d0) : (⟨S625000, .i32⟩ : BufTy).Contents (Elt F) → (⟨S50000, .i32⟩ : BufTy).Contents (Elt F) → (⟨S675000, .i32⟩ : BufTy).Contents (Elt F)),
    binary main_call0_v3 main_call0_v4 main_call0_v6 ((fun a b => concatenate S675000 0 [⟨S625000, a⟩, ⟨S50000, b⟩] concatenates_S625000_S50000_S675000_d0) : (⟨S625000, .i32⟩ : BufTy).Contents (Elt F) → (⟨S50000, .i32⟩ : BufTy).Contents (Elt F) → (⟨S675000, .i32⟩ : BufTy).Contents (Elt F)) ]

/-- The rest of the operations before the first grid: the degrees, the node weights as a column, the bias as a row. -/
abbrev ops0b : List (HloOp τ sig (Elt F)) :=
  [ nullary main_call0_cst ((constant S_ .f32 0x3F800000#32) : (⟨S_, .f32⟩ : BufTy).Contents (Elt F)),
    unary main_call0_cst main_call0_v7 ((broadcastInDim S675000 ![] bcast_S_S675000) : (⟨S_, .f32⟩ : BufTy).Contents (Elt F) → (⟨S675000, .f32⟩ : BufTy).Contents (Elt F)),
    nullary main_call0_cst_0 ((constant S_ .f32 0x00000000#32) : (⟨S_, .f32⟩ : BufTy).Contents (Elt F)),
    unary main_call0_cst_0 main_call0_v8 ((broadcastInDim S50000 ![] bcast_S_S50000) : (⟨S_, .f32⟩ : BufTy).Contents (Elt F) → (⟨S50000, .f32⟩ : BufTy).Contents (Elt F)),
    unary main_call0_v6 main_call0_v9 ((broadcastInDim S675000x1 ![0] bcast_S675000_S675000x1_0) : (⟨S675000, .i32⟩ : BufTy).Contents (Elt F) → (⟨S675000x1, .i32⟩ : BufTy).Contents (Elt F)),
    ternary main_call0_v8 main_call0_v9 main_call0_v7 main_call0_v10 ((fun x i u => Host.scatterAdd scatter_S50000_S675000x1_S675000_n_0_0_1 x i u) : (⟨S50000, .f32⟩ : BufTy).Contents (Elt F) → (⟨S675000x1, .i32⟩ : BufTy).Contents (Elt F) → (⟨S675000, .f32⟩ : BufTy).Contents (Elt F) → (⟨S50000, .f32⟩ : BufTy).Contents (Elt F)),
    nullary main_call0_cst_1 ((constant S_ .f32 0x00000000#32) : (⟨S_, .f32⟩ : BufTy).Contents (Elt F)),
    unary main_call0_cst_1 main_call0_v11 ((broadcastInDim S50000 ![] bcast_S_S50000) : (⟨S_, .f32⟩ : BufTy).Contents (Elt F) → (⟨S50000, .f32⟩ : BufTy).Contents (Elt F)),
    binary main_call0_v10 main_call0_v11 main_call0_v12 ((cmpf .ogt) : (⟨S50000, .f32⟩ : BufTy).Contents (Elt F) → (⟨S50000, .f32⟩ : BufTy).Contents (Elt F) → (⟨S50000, .i1⟩ : BufTy).Contents (Elt F)),
    unary main_call0_v10 main_call0_v13 (Host.rsqrt : (⟨S50000, .f32⟩ : BufTy).Contents (Elt F) → (⟨S50000, .f32⟩ : BufTy).Contents (Elt F)),
    nullary main_call0_cst_2 ((constant S_ .f32 0x00000000#32) : (⟨S_, .f32⟩ : BufTy).Contents (Elt F)),
    unary main_call0_cst_2 main_call0_call0_v0 (id : (⟨S_, .f32⟩ : BufTy).Contents (Elt F) → (⟨S_, .f32⟩ : BufTy).Contents (Elt F)),
    unary main_call0_call0_v0 main_call0_call0_v1 ((broadcastInDim S50000 ![] bcast_S_S50000) : (⟨S_, .f32⟩ : BufTy).Contents (Elt F) → (⟨S50000, .f32⟩ : BufTy).Contents (Elt F)),
    ternary main_call0_v12 main_call0_v13 main_call0_call0_v1 main_call0_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    reshape main_call0_v14 main_call0_v15 rfl shapeCasts_S50000_S50000x1,
    reshape main_arg3 main_call0_v16 rfl shapeCasts_S128_S1x128 ]

/-- The operations between the grids: the first gather of rows and their accumulation. -/
abbrev ops1 : List (HloOp τ sig (Elt F)) :=
  [ nullary main_call0_c ((constantI S_ 32 0#32) : (⟨S_, .i32⟩ : BufTy).Contents (Elt F)),
    unary main_call0_c main_call0_v18 ((broadcastInDim S675000 ![] bcast_S_S675000) : (⟨S_, .i32⟩ : BufTy).Contents (Elt F) → (⟨S675000, .i32⟩ : BufTy).Contents (Elt F)),
    binary main_call0_v5 main_call0_v18 main_call0_v19 ((cmpi .slt) : (⟨S675000, .i32⟩ : BufTy).Contents (Elt F) → (⟨S675000, .i32⟩ : BufTy).Contents (Elt F) → (⟨S675000, .i1⟩ : BufTy).Contents (Elt F)),
    nullary main_call0_c_3 ((constantI S_ 32 50000#32) : (⟨S_, .i32⟩ : BufTy).Contents (Elt F)),
    unary main_call0_c_3 main_call0_v20 ((broadcastInDim S675000 ![] bcast_S_S675000) : (⟨S_, .i32⟩ : BufTy).Contents (Elt F) → (⟨S675000, .i32⟩ : BufTy).Contents (Elt F)),
    binary main_call0_v5 main_call0_v20 main_call0_v21 (addi : (⟨S675000, .i32⟩ : BufTy).Contents (Elt F) → (⟨S675000, .i32⟩ : BufTy).Contents (Elt F) → (⟨S675000, .i32⟩ : BufTy).Contents (Elt F)),
    ternary main_call0_v19 main_call0_v21 main_call0_v5 main_call0_v22 (select : (⟨S675000, .i1⟩ : BufTy).Contents (Elt F) → (⟨S675000, .i32⟩ : BufTy).Contents (Elt F) → (⟨S675000, .i32⟩ : BufTy).Contents (Elt F) → (⟨S675000, .i32⟩ : BufTy).Contents (Elt F)),
    unary main_call0_v22 main_call0_v23 ((broadcastInDim S675000x1 ![0] bcast_S675000_S675000x1_0) : (⟨S675000, .i32⟩ : BufTy).Contents (Elt F) → (⟨S675000x1, .i32⟩ : BufTy).Contents (Elt F)),
    binary main_call0_v17 main_call0_v23 main_call0_v24 ((fun x i => Host.gather gather_S50000x128_S675000x1_S675000x128_1_0_n_n_0_1_1128 x i) : (⟨S50000x128, .bf16⟩ : BufTy).Contents (Elt F) → (⟨S675000x1, .i32⟩ : BufTy).Contents (Elt F) → (⟨S675000x128, .bf16⟩ : BufTy).Contents (Elt F)),
    unary main_call0_v24 main_call0_v25 ((extf .f32 · bitsLt_bf16_f32) : (⟨S675000x128, .bf16⟩ : BufTy).Contents (Elt F) → (⟨S675000x128, .f32⟩ : BufTy).Contents (Elt F)),
    nullary main_call0_cst_4 ((constant S_ .f32 0x00000000#32) : (⟨S_, .f32⟩ : BufTy).Contents (Elt F)),
    unary main_call0_cst_4 main_call0_v26 ((broadcastInDim S50000x128 ![] bcast_S_S50000x128) : (⟨S_, .f32⟩ : BufTy).Contents (Elt F) → (⟨S50000x128, .f32⟩ : BufTy).Contents (Elt F)),
    unary main_call0_v6 main_call0_v27 ((broadcastInDim S675000x1 ![0] bcast_S675000_S675000x1_0) : (⟨S675000, .i32⟩ : BufTy).Contents (Elt F) → (⟨S675000x1, .i32⟩ : BufTy).Contents (Elt F)),
    ternary main_call0_v26 main_call0_v27 main_call0_v25 main_call0_v28 ((fun x i u => Host.scatterAdd scatter_S50000x128_S675000x1_S675000x128_1_0_0_1 x i u) : (⟨S50000x128, .f32⟩ : BufTy).Contents (Elt F) → (⟨S675000x1, .i32⟩ : BufTy).Contents (Elt F) → (⟨S675000x128, .f32⟩ : BufTy).Contents (Elt F) → (⟨S50000x128, .f32⟩ : BufTy).Contents (Elt F)) ]

/-- The operations after the second grid: the second gather and accumulation, the last scaling and the bias. -/
abbrev ops2 : List (HloOp τ sig (Elt F)) :=
  [ nullary main_call0_c_5 ((constantI S_ 32 0#32) : (⟨S_, .i32⟩ : BufTy).Contents (Elt F)),
    unary main_call0_c_5 main_call0_v30 ((broadcastInDim S675000 ![] bcast_S_S675000) : (⟨S_, .i32⟩ : BufTy).Contents (Elt F) → (⟨S675000, .i32⟩ : BufTy).Contents (Elt F)),
    binary main_call0_v5 main_call0_v30 main_call0_v31 ((cmpi .slt) : (⟨S675000, .i32⟩ : BufTy).Contents (Elt F) → (⟨S675000, .i32⟩ : BufTy).Contents (Elt F) → (⟨S675000, .i1⟩ : BufTy).Contents (Elt F)),
    nullary main_call0_c_6 ((constantI S_ 32 50000#32) : (⟨S_, .i32⟩ : BufTy).Contents (Elt F)),
    unary main_call0_c_6 main_call0_v32 ((broadcastInDim S675000 ![] bcast_S_S675000) : (⟨S_, .i32⟩ : BufTy).Contents (Elt F) → (⟨S675000, .i32⟩ : BufTy).Contents (Elt F)),
    binary main_call0_v5 main_call0_v32 main_call0_v33 (addi : (⟨S675000, .i32⟩ : BufTy).Contents (Elt F) → (⟨S675000, .i32⟩ : BufTy).Contents (Elt F) → (⟨S675000, .i32⟩ : BufTy).Contents (Elt F)),
    ternary main_call0_v31 main_call0_v33 main_call0_v5 main_call0_v34 (select : (⟨S675000, .i1⟩ : BufTy).Contents (Elt F) → (⟨S675000, .i32⟩ : BufTy).Contents (Elt F) → (⟨S675000, .i32⟩ : BufTy).Contents (Elt F) → (⟨S675000, .i32⟩ : BufTy).Contents (Elt F)),
    unary main_call0_v34 main_call0_v35 ((broadcastInDim S675000x1 ![0] bcast_S675000_S675000x1_0) : (⟨S675000, .i32⟩ : BufTy).Contents (Elt F) → (⟨S675000x1, .i32⟩ : BufTy).Contents (Elt F)),
    binary main_call0_v29 main_call0_v35 main_call0_v36 ((fun x i => Host.gather gather_S50000x64_S675000x1_S675000x64_1_0_n_n_0_1_164 x i) : (⟨S50000x64, .bf16⟩ : BufTy).Contents (Elt F) → (⟨S675000x1, .i32⟩ : BufTy).Contents (Elt F) → (⟨S675000x64, .bf16⟩ : BufTy).Contents (Elt F)),
    unary main_call0_v36 main_call0_v37 ((extf .f32 · bitsLt_bf16_f32) : (⟨S675000x64, .bf16⟩ : BufTy).Contents (Elt F) → (⟨S675000x64, .f32⟩ : BufTy).Contents (Elt F)),
    nullary main_call0_cst_7 ((constant S_ .f32 0x00000000#32) : (⟨S_, .f32⟩ : BufTy).Contents (Elt F)),
    unary main_call0_cst_7 main_call0_v38 ((broadcastInDim S50000x64 ![] bcast_S_S50000x64) : (⟨S_, .f32⟩ : BufTy).Contents (Elt F) → (⟨S50000x64, .f32⟩ : BufTy).Contents (Elt F)),
    unary main_call0_v6 main_call0_v39 ((broadcastInDim S675000x1 ![0] bcast_S675000_S675000x1_0) : (⟨S675000, .i32⟩ : BufTy).Contents (Elt F) → (⟨S675000x1, .i32⟩ : BufTy).Contents (Elt F)),
    ternary main_call0_v38 main_call0_v39 main_call0_v37 main_call0_v40 ((fun x i u => Host.scatterAdd scatter_S50000x64_S675000x1_S675000x64_1_0_0_1 x i u) : (⟨S50000x64, .f32⟩ : BufTy).Contents (Elt F) → (⟨S675000x1, .i32⟩ : BufTy).Contents (Elt F) → (⟨S675000x64, .f32⟩ : BufTy).Contents (Elt F) → (⟨S50000x64, .f32⟩ : BufTy).Contents (Elt F)),
    unary main_call0_v15 main_call0_v41 ((broadcastInDim S50000x64 ![0, 1] bcast_S50000x1_S50000x64_0_1) : (⟨S50000x1, .f32⟩ : BufTy).Contents (Elt F) → (⟨S50000x64, .f32⟩ : BufTy).Contents (Elt F)),
    binary main_call0_v41 main_call0_v40 main_call0_v42 (mulf : (⟨S50000x64, .f32⟩ : BufTy).Contents (Elt F) → (⟨S50000x64, .f32⟩ : BufTy).Contents (Elt F) → (⟨S50000x64, .f32⟩ : BufTy).Contents (Elt F)),
    unary main_arg5 main_call0_v43 ((broadcastInDim S1x64 ![1] bcast_S64_S1x64_1) : (⟨S64, .f32⟩ : BufTy).Contents (Elt F) → (⟨S1x64, .f32⟩ : BufTy).Contents (Elt F)),
    unary main_call0_v43 main_call0_v44 ((broadcastInDim S50000x64 ![0, 1] bcast_S1x64_S50000x64_0_1) : (⟨S1x64, .f32⟩ : BufTy).Contents (Elt F) → (⟨S50000x64, .f32⟩ : BufTy).Contents (Elt F)),
    binary main_call0_v42 main_call0_v44 main_v0 (addf : (⟨S50000x64, .f32⟩ : BufTy).Contents (Elt F) → (⟨S50000x64, .f32⟩ : BufTy).Contents (Elt F) → (⟨S50000x64, .f32⟩ : BufTy).Contents (Elt F)) ]

theorem ops0_eq : (hostOps0 : List (HloOp τ sig (Elt F))) = ops0a ++ ops0b := rfl
theorem ops1_eq : (hostOps1 : List (HloOp τ sig (Elt F))) = ops1 := rfl
theorem ops2_eq : (hostOps2 : List (HloOp τ sig (Elt F))) = ops2 := rfl

end Cert.KernelIdeal.Plain

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.KHost0.lean ====
/-
  What the first stretch of host operations leaves: the edge columns, the node weights, the bias row.

  From the launch memory the stretch computes the 675000 sources and targets (the edge list's rows with a self loop
  per node appended), the degree of every node (a one for every edge that goes into it), the weight `1/√deg` where
  the degree is positive and zero elsewhere, laid out as a `50000 × 1` column, and the first bias as a `1 × 128` row.
  The reference computes the columns and the weights by the same operations of the edge list: the same terms.
-/
import proofs.«170453_j40750649704955_2_alg».proof.Proof.KernelRun
import proofs.«170453_j40750649704955_2_alg».proof.Proof.KOps
import proofs.«170453_j40750649704955_2_alg».proof.Proof.RefGraph
import proofs.«170453_j40750649704955_2_alg».proof.Proof.LibAfterAppend
import Idealize.ShloMosaic.Lib.StableHlo.Run

set_option maxRecDepth 16384

noncomputable section

namespace Cert.KernelIdeal.Host

open Cert.KernelIdeal Cert.KernelIdeal.Gen Cert.KernelIdeal.Plain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge list at launch. -/
abbrev E : Cert.Graph.Edges := m ((c : Thread nD τ).loc main_arg1)

/-- The buffers' contents after the first seven operations (the two edge columns). -/
def VA : Valuation τ sig (Elt Ideal) := after ops0a (W0 m ρ c)

theorem W1_split : W1 m ρ c = after ops0b (VA m ρ c) := by
  show after hostOps0 (W0 m ρ c) = _
  rw [ops0_eq, Cert.Lib.AfterAppend.after_append]
  rfl

/-- The column of sources. -/
theorem VA_v5 : VA m ρ c (Proc.devRef .tc main_call0_v5)
    = Cert.ReferenceIdeal.ReadP.val_main_v5 (F := Ideal) (E m c) := by
  unfold VA
  after_results
  rfl

/-- The column of targets. -/
theorem VA_v6 : VA m ρ c (Proc.devRef .tc main_call0_v6)
    = Cert.ReferenceIdeal.ReadP.val_main_v6 (F := Ideal) (E m c) := by
  unfold VA
  after_results
  rfl

theorem VA_arg0 : VA m ρ c (Proc.devRef .tc main_arg0) = m ((c : Thread nD τ).loc main_arg0) := by
  unfold VA; after_results
theorem VA_arg2 : VA m ρ c (Proc.devRef .tc main_arg2) = m ((c : Thread nD τ).loc main_arg2) := by
  unfold VA; after_results
theorem VA_arg3 : VA m ρ c (Proc.devRef .tc main_arg3) = m ((c : Thread nD τ).loc main_arg3) := by
  unfold VA; after_results
theorem VA_arg4 : VA m ρ c (Proc.devRef .tc main_arg4) = m ((c : Thread nD τ).loc main_arg4) := by
  unfold VA; after_results
theorem VA_arg5 : VA m ρ c (Proc.devRef .tc main_arg5) = m ((c : Thread nD τ).loc main_arg5) := by
  unfold VA; after_results

/-- The two programs' records of the degree accumulation are one record. -/
theorem degScatter_eq : scatter_S50000_S675000x1_S675000_n_0_0_1 = Cert.ReferenceIdeal.scatter_S50000_S675000x1_S675000_n_0_0_1 := rfl

/-! ## After the whole stretch -/

theorem W1_v5 : W1 m ρ c (Proc.devRef .tc main_call0_v5)
    = Cert.ReferenceIdeal.ReadP.val_main_v5 (F := Ideal) (E m c) := by
  rw [W1_split]; after_results_simp; exact VA_v5 m ρ c

theorem W1_v6 : W1 m ρ c (Proc.devRef .tc main_call0_v6)
    = Cert.ReferenceIdeal.ReadP.val_main_v6 (F := Ideal) (E m c) := by
  rw [W1_split]; after_results_simp; exact VA_v6 m ρ c

theorem W1_arg0 : W1 m ρ c (Proc.devRef .tc main_arg0) = m ((c : Thread nD τ).loc main_arg0) := by
  rw [W1_split]; after_results_simp; exact VA_arg0 m ρ c
theorem W1_arg2 : W1 m ρ c (Proc.devRef .tc main_arg2) = m ((c : Thread nD τ).loc main_arg2) := by
  rw [W1_split]; after_results_simp; exact VA_arg2 m ρ c
theorem W1_arg4 : W1 m ρ c (Proc.devRef .tc main_arg4) = m ((c : Thread nD τ).loc main_arg4) := by
  rw [W1_split]; after_results_simp; exact VA_arg4 m ρ c
theorem W1_arg5 : W1 m ρ c (Proc.devRef .tc main_arg5) = m ((c : Thread nD τ).loc main_arg5) := by
  rw [W1_split]; after_results_simp; exact VA_arg5 m ρ c

/-- THE NODE WEIGHTS, as a column. -/
theorem W1_v15 : W1 m ρ c (Proc.devRef .tc main_call0_v15)
    = shapeCast S50000x1 (Cert.Graph.dinv (E m c)) shapeCasts_S50000_S50000x1 := by
  rw [W1_split]
  after_results_simp
  rw [VA_v6, degScatter_eq]
  unfold Cert.Graph.dinv Cert.ReferenceIdeal.ReadP.val_main_v14 Cert.ReferenceIdeal.ReadP.val_main_v12 Cert.ReferenceIdeal.ReadP.val_main_v13 Cert.ReferenceIdeal.ReadP.val_main_call0_v1 Cert.ReferenceIdeal.ReadP.val_main_call0_v0 Cert.ReferenceIdeal.ReadP.val_main_cst_2 Cert.ReferenceIdeal.ReadP.val_main_v11 Cert.ReferenceIdeal.ReadP.val_main_cst_1 Cert.ReferenceIdeal.ReadP.val_main_v10 Cert.ReferenceIdeal.ReadP.val_main_v8 Cert.ReferenceIdeal.ReadP.val_main_cst_0 Cert.ReferenceIdeal.ReadP.val_main_v9 Cert.ReferenceIdeal.ReadP.val_main_v7 Cert.ReferenceIdeal.ReadP.val_main_cst
  rfl

/-- The first bias, as a row. -/
theorem W1_v16 : W1 m ρ c (Proc.devRef .tc main_call0_v16)
    = shapeCast S1x128 (m ((c : Thread nD τ).loc main_arg3)) shapeCasts_S128_S1x128 := by
  rw [W1_split]
  after_results_simp
  rw [VA_arg3]
  rfl

end Cert.KernelIdeal.Host

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KRegion0.lean ====
/-
  The first product's grid: the array it leaves.

  The grid has 25 points; point `t` reads rows `2000·t … 2000·t + 1999` of the features and of the node-weight
  column, the whole weight matrix, and writes the same rows of the output. Its body multiplies the block of features
  by the weight matrix and scales row `r` of the product by the column's entry `r`. So the block point `t` writes
  back is rows `2000·t …` of ONE array: at `(p, q)`, `(∑ k, x(p, k) · w(k, q)) · d(p)`; the 25 blocks tile the
  50000 rows, and the output array ends holding that array.
-/
import proofs.«170453_j40750649704955_2_alg».proof.Proof.Gen.KernelIdeal.Frame
import proofs.«170453_j40750649704955_2_alg».proof.Proof.LibPlainDot
import proofs.«170453_j40750649704955_2_alg».proof.Proof.LibKeepdims
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib

/-- An array of exact values read at an index, as an extended real. -/
abbrev rd {s : Shape} {φ : FTy} (v : FVec Ideal s φ) (i : s.Idx) : EReal := v i

/-- The scaled product at row `p`, column `q`. -/
def prod1c (x : FVec Ideal S50000x128 .f32) (w : FVec Ideal S128x128 .f32) (d : FVec Ideal S50000x1 .f32)
    (p : Fin 50000) (q : Fin 128) : EReal :=
  (∑ k : Fin 128, x (ix2 p k) * w (ix2 k q)) * d (ix2 p (0 : Fin 1))

/-- The scaled product as an array. -/
def prod1 (x : FVec Ideal S50000x128 .f32) (w : FVec Ideal S128x128 .f32) (d : FVec Ideal S50000x1 .f32) :
    FVec Ideal S50000x128 .bf16 := fun i => prod1c x w d (i 0) (i 1)

/-- The body's stored value at row `r`, column `q` of the block. -/
theorem pay_apply (x0 : Vec Ideal S2000x128 .f32) (x1 : Vec Ideal S128x128 .f32) (x2 : Vec Ideal S2000x1 .f32)
    (r : Fin 2000) (q : Fin 128) :
    k0_pay1 x0 x1 x2 (ix2 r q) = (∑ k : Fin 128, x0 (ix2 r k) * x1 (ix2 k q)) * x2 (ix2 r (0 : Fin 1)) := by
  unfold k0_pay1
  show (matmul (F := Ideal) dot_S2000x128_S128x128_S2000x128_1_0_0_1_n_n none (truncf .bf16 x0 bitsLt_bf16_f32)
        (truncf .bf16 x1 bitsLt_bf16_f32) (constant S2000x128 .f32 0x00000000#32) (ix2 r q) : EReal)
      * (broadcastTo S2000x128 (shapeCast S2000x1 x2 shapeCasts_S2000x1_S2000x1) broadcasts_S2000x1_S2000x128 (ix2 r q) : EReal) = _
  rw [shapeCast_self]
  refine congrArg₂ (· * ·) ?_ ?_
  · exact PlainDot.matmul_zero_apply dot_S2000x128_S128x128_S2000x128_1_0_0_1_n_n_wf none _ _ r q
  · exact Keepdims.bcastCol_apply x2 _ r q

/-- The same at an index of the block. -/
theorem pay_apply' (x0 : Vec Ideal S2000x128 .f32) (x1 : Vec Ideal S128x128 .f32) (x2 : Vec Ideal S2000x1 .f32)
    (y : S2000x128.Idx) :
    k0_pay1 x0 x1 x2 y = (∑ k : Fin 128, x0 (ix2 (y 0) k) * x1 (ix2 k (y 1))) * x2 (ix2 (y 0) (0 : Fin 1)) := by
  obtain ⟨r, q, rfl⟩ : ∃ (r : Fin 2000) (q : Fin 128), y = ix2 r q := ⟨y 0, y 1, eq_ix2 y⟩
  exact pay_apply x0 x1 x2 r q

theorem hz : (![0, 0] : Fin 2 → Nat) = fun _ => 0 := funext fun a => by fin_cases a <;> rfl

/-- The printed index maps, decided over the grid: the features', the column's and the output's blocks are block row
    `t`, block column 0; the weight matrix's block is the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the scaled product of the arrays as the grid finds them. -/
theorem flushed_eq (c : Dev nD) (t : Fin cfg0.N) :
    (dat0 V c).flushed 3 t
      = ((cfg0.win 3).blk t).view.read (Elt Ideal) (prod1 (V c main_arg0) (V c main_arg2) (V c main_call0_v15)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz, View.ld_unit_zero (S := S2000x1) hz]
  obtain ⟨e00, e01, e10, e11, e20, e21, e30, e31⟩ := idx_facts t
  funext j
  refine (pay_apply' (iblk0 V c 0 t) (iblk0 V c 1 t) (iblk0 V c 2 t) j).trans ?_
  show (∑ k : Fin 128, rd (φ := .f32) (s := S50000x128) (V c main_arg0) (((cfg0.win 0).blk t).view.emb (ix2 (j 0) k))
          * rd (φ := .f32) (s := S128x128) (V c main_arg2) (((cfg0.win 1).blk t).view.emb (ix2 k (j 1))))
        * rd (φ := .f32) (s := S50000x1) (V c main_call0_v15) (((cfg0.win 2).blk t).view.emb (ix2 (j 0) (0 : Fin 1)))
      = prod1c (V c main_arg0) (V c main_arg2) (V c main_call0_v15)
          ((((cfg0.win 3).blk t).view.emb j) 0) ((((cfg0.win 3).blk t).view.emb j) 1)
  unfold prod1c
  have hj0 : (j 0).val < 2000 := (j 0).isLt
  have hj1 : (j 1).val < 128 := (j 1).isLt
  have h0 : ∀ k : Fin 128, ((cfg0.win 0).blk t).view.emb (ix2 (j 0) k)
      = ix2 ((((cfg0.win 3).blk t).view.emb j) 0) k := fun k => by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  have h1 : ∀ k : Fin 128, ((cfg0.win 1).blk t).view.emb (ix2 k (j 1))
      = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (j 0) (0 : Fin 1))
      = ix2 ((((cfg0.win 3).blk t).view.emb j) 0) (0 : Fin 1) := by
    funext a; apply Fin.ext
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 1 + 1 * 0 = 0; omega
  rw [h2]
  refine congrArg₂ (· * ·) ?_ rfl
  exact Finset.sum_congr rfl fun k _ => by rw [h0 k, h1 k]; rfl

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_call0_v17).slice (win0_3.rect t)).set ↔ _
  rw [View.set_slice_whole, Rect.mem_set_unit]
  exact Iff.rfl

/-- Every index of the array is in some point's block: the blocks tile the rows. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  refine ⟨t, flush0_3 t, ?_⟩
  obtain ⟨e00, e01, e10, e11, e20, e21, e30, e31⟩ := idx_facts t
  have ht : t.val = (i 0).val / 2000 := rfl
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE OUTPUT ARRAY after the grid: the scaled product of the arrays as the grid finds them. -/
theorem final (c : Dev nD) :
    (dat0 V c).arrAt 3 cfg0.N = prod1 (V c main_arg0) (V c main_arg2) (V c main_call0_v15) :=
  (dat0 V c).arrAt_eq_of_cover 3 (prod1 (V c main_arg0) (V c main_arg2) (V c main_call0_v15))
    (fun t _ => flushed_eq V c t) (cover)

end Cert.KernelIdeal.Region0

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KRegion1.lean ====
/-
  The second product's grid: the array it leaves.

  The grid has 25 points; point `t` reads rows `2000·t … 2000·t + 1999` of the aggregated features and of the
  node-weight column, the whole bias row and the whole second weight matrix, and writes the same rows of the output.
  Its body scales row `r` of the aggregate by the column's entry `r`, adds the bias, takes the maximum with zero,
  multiplies by the weight matrix and scales row `r` of the product by the column's entry again. So the block point
  `t` writes back is rows `2000·t …` of ONE array: at `(n, g)`,
  `(∑ f, max(a(n, f) · d(n) + b(f), 0) · w(f, g)) · d(n)`; the 25 blocks tile the 50000 rows.
-/
import proofs.«170453_j40750649704955_2_alg».proof.Proof.Gen.KernelIdeal.Frame
import proofs.«170453_j40750649704955_2_alg».proof.Proof.LibPlainDot
import proofs.«170453_j40750649704955_2_alg».proof.Proof.LibKeepdims
import proofs.«170453_j40750649704955_2_alg».proof.Proof.LibRowBroadcasts
import Idealize.ShloMosaic.Lib.Pipeline.Value
import Idealize.ShloMosaic.Lib.ValueIdx
import Idealize.ShloMosaic.Lib.IdealHost

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib

/-- An array of exact values read at an index, as an extended real. -/
abbrev rd {s : Shape} {φ : FTy} (v : FVec Ideal s φ) (i : s.Idx) : EReal := v i

/-- The second layer's scaled product at row `n`, column `g`. -/
def prod2c (a : FVec Ideal S50000x128 .f32) (d : FVec Ideal S50000x1 .f32) (b : FVec Ideal S1x128 .f32)
    (w : FVec Ideal S128x64 .f32) (n : Fin 50000) (g : Fin 64) : EReal :=
  (∑ f : Fin 128, max (a (ix2 n f) * d (ix2 n (0 : Fin 1)) + b (ix2 (0 : Fin 1) f)) 0 * w (ix2 f g))
    * d (ix2 n (0 : Fin 1))

/-- The second layer's scaled product as an array. -/
def prod2 (a : FVec Ideal S50000x128 .f32) (d : FVec Ideal S50000x1 .f32) (b : FVec Ideal S1x128 .f32)
    (w : FVec Ideal S128x64 .f32) : FVec Ideal S50000x64 .bf16 := fun i => prod2c a d b w (i 0) (i 1)

/-- The body's stored value at row `r`, column `g` of the block. -/
theorem pay_apply (v0 : Vec Ideal S2000x128 .f32) (v2 : Vec Ideal S2000x1 .f32) (v6 : Vec Ideal S1x128 .f32)
    (v13 : Vec Ideal S128x64 .f32) (v16 : Vec Ideal S2000x1 .f32) (r : Fin 2000) (g : Fin 64) :
    k1_pay1 v0 v2 v6 v13 v16 (ix2 r g)
      = (∑ f : Fin 128, max (v0 (ix2 r f) * v2 (ix2 r (0 : Fin 1)) + v6 (ix2 (0 : Fin 1) f)) 0 * v13 (ix2 f g))
          * v16 (ix2 r (0 : Fin 1)) := by
  unfold k1_pay1
  show (matmul (F := Ideal) dot_S2000x128_S128x64_S2000x64_1_0_0_1_n_n none
        (truncf .bf16 (maximumf (addf (mulf (shapeCast S2000x128 v0 shapeCasts_S2000x128_S2000x128)
            (broadcastTo S2000x128 (shapeCast S2000x1 v2 shapeCasts_S2000x1_S2000x1) broadcasts_S2000x1_S2000x128))
            (broadcastTo S2000x128 (shapeCast S1x128 v6 shapeCasts_S1x128_S1x128) broadcasts_S1x128_S2000x128))
          (broadcast S2000x128 (Scalar.ofBits (F := Ideal) .f32 0x00000000#32))) bitsLt_bf16_f32)
        (truncf .bf16 v13 bitsLt_bf16_f32) (constant S2000x64 .f32 0x00000000#32) (ix2 r g) : EReal)
      * (broadcastTo S2000x64 (shapeCast S2000x1 v16 shapeCasts_S2000x1_S2000x1) broadcasts_S2000x1_S2000x64 (ix2 r g) : EReal) = _
  rw [shapeCast_self, shapeCast_self, shapeCast_self, shapeCast_self]
  refine congrArg₂ (· * ·) ?_ ?_
  · refine (PlainDot.matmul_zero_apply dot_S2000x128_S128x64_S2000x64_1_0_0_1_n_n_wf none _ _ r g).trans ?_
    refine Finset.sum_congr rfl fun f _ => ?_
    refine congrArg₂ (· * ·) ?_ rfl
    show max ((v0 (ix2 r f) : EReal) * (broadcastTo S2000x128 v2 broadcasts_S2000x1_S2000x128 (ix2 r f) : EReal)
        + (broadcastTo S2000x128 v6 broadcasts_S1x128_S2000x128 (ix2 r f) : EReal)) (Ideal.ofBits .f32 0x00000000#32) = _
    rw [Keepdims.bcastCol_apply, Rows.bcastRow_apply, Ideal.ofBits_zero_f32]
  · exact Keepdims.bcastCol_apply v16 _ r g

/-- The same at an index of the block. -/
theorem pay_apply' (v0 : Vec Ideal S2000x128 .f32) (v2 : Vec Ideal S2000x1 .f32) (v6 : Vec Ideal S1x128 .f32)
    (v13 : Vec Ideal S128x64 .f32) (v16 : Vec Ideal S2000x1 .f32) (y : S2000x64.Idx) :
    k1_pay1 v0 v2 v6 v13 v16 y
      = (∑ f : Fin 128, max (v0 (ix2 (y 0) f) * v2 (ix2 (y 0) (0 : Fin 1)) + v6 (ix2 (0 : Fin 1) f)) 0 * v13 (ix2 f (y 1)))
          * v16 (ix2 (y 0) (0 : Fin 1)) := by
  obtain ⟨r, g, rfl⟩ : ∃ (r : Fin 2000) (g : Fin 64), y = ix2 r g := ⟨y 0, y 1, eq_ix2 y⟩
  exact pay_apply v0 v2 v6 v13 v16 r g

theorem hz : (![0, 0] : Fin 2 → Nat) = fun _ => 0 := funext fun a => by fin_cases a <;> rfl

/-- The printed index maps, decided over the grid: the aggregate's, the column's and the output's blocks are block row
    `t`, block column 0; the bias row's and the weight matrix's blocks are the whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the scaled product of the arrays as the grid finds them. -/
theorem flushed_eq (c : Dev nD) (t : Fin cfg1.N) :
    (dat1 V c).flushed 4 t
      = ((cfg1.win 4).blk t).view.read (Elt Ideal)
          (prod2 (V c main_call0_v28) (V c main_call0_v15) (V c main_call0_v16) (V c main_arg4)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz,
    View.ld_unit_zero (S := S1x128) hz, View.ld_unit_zero (S := S128x64) hz]
  obtain ⟨e00, e01, e10, e11, e20, e21, e30, e31, e40, e41⟩ := idx_facts t
  funext j
  refine (pay_apply' (iblk1 V c 0 t) (iblk1 V c 1 t) (iblk1 V c 2 t) (iblk1 V c 3 t) (iblk1 V c 1 t) j).trans ?_
  show (∑ f : Fin 128, max (rd (φ := .f32) (s := S50000x128) (V c main_call0_v28) (((cfg1.win 0).blk t).view.emb (ix2 (j 0) f))
            * rd (φ := .f32) (s := S50000x1) (V c main_call0_v15) (((cfg1.win 1).blk t).view.emb (ix2 (j 0) (0 : Fin 1)))
            + rd (φ := .f32) (s := S1x128) (V c main_call0_v16) (((cfg1.win 2).blk t).view.emb (ix2 (0 : Fin 1) f))) 0
          * rd (φ := .f32) (s := S128x64) (V c main_arg4) (((cfg1.win 3).blk t).view.emb (ix2 f (j 1))))
        * rd (φ := .f32) (s := S50000x1) (V c main_call0_v15) (((cfg1.win 1).blk t).view.emb (ix2 (j 0) (0 : Fin 1)))
      = prod2c (V c main_call0_v28) (V c main_call0_v15) (V c main_call0_v16) (V c main_arg4)
          ((((cfg1.win 4).blk t).view.emb j) 0) ((((cfg1.win 4).blk t).view.emb j) 1)
  unfold prod2c
  have hj0 : (j 0).val < 2000 := (j 0).isLt
  have hj1 : (j 1).val < 64 := (j 1).isLt
  have h0 : ∀ f : Fin 128, ((cfg1.win 0).blk t).view.emb (ix2 (j 0) f)
      = ix2 ((((cfg1.win 4).blk t).view.emb j) 0) f := fun f => by
    funext a; apply Fin.ext
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 128 + 1 * f.val = f.val; omega
  have h1 : ((cfg1.win 1).blk t).view.emb (ix2 (j 0) (0 : Fin 1))
      = ix2 ((((cfg1.win 4).blk t).view.emb j) 0) (0 : Fin 1) := by
    funext a; apply Fin.ext
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 1 + 1 * 0 = 0; omega
  have h2 : ∀ f : Fin 128, ((cfg1.win 2).blk t).view.emb (ix2 (0 : Fin 1) f) = ix2 (0 : Fin 1) f := fun f => by
    funext a; apply Fin.ext
    match a with
    | ⟨0, _⟩ => show win1_2.index t (0 : Fin 2) * 1 + 1 * 0 = 0; omega
    | ⟨1, _⟩ => show win1_2.index t (1 : Fin 2) * 128 + 1 * f.val = f.val; omega
  have h3 : ∀ f : Fin 128, ((cfg1.win 3).blk t).view.emb (ix2 f (j 1))
      = ix2 f ((((cfg1.win 4).blk t).view.emb j) 1) := fun f => by
    funext a; apply Fin.ext
    match a with
    | ⟨0, _⟩ => show win1_3.index t (0 : Fin 2) * 128 + 1 * f.val = f.val; omega
    | ⟨1, _⟩ => show win1_3.index t (1 : Fin 2) * 64 + 1 * (j 1).val = win1_4.index t (1 : Fin 2) * 64 + 1 * (j 1).val; omega
  rw [h1]
  refine congrArg₂ (· * ·) ?_ rfl
  exact Finset.sum_congr rfl fun f _ => by rw [h0 f, h2 f, h3 f]; rfl

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_call0_v29).slice (win1_4.rect t)).set ↔ _
  rw [View.set_slice_whole, Rect.mem_set_unit]
  exact Iff.rfl

/-- Every index of the array is in some point's block: the blocks tile the rows. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  refine ⟨t, flush1_4 t, ?_⟩
  obtain ⟨e00, e01, e10, e11, e20, e21, e30, e31, e40, e41⟩ := idx_facts t
  have ht : t.val = (i 0).val / 2000 := rfl
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- THE OUTPUT ARRAY after the grid: the scaled product of the arrays as the grid finds them. -/
theorem final (c : Dev nD) :
    (dat1 V c).arrAt 4 cfg1.N
      = prod2 (V c main_call0_v28) (V c main_call0_v15) (V c main_call0_v16) (V c main_arg4) :=
  (dat1 V c).arrAt_eq_of_cover 4 (prod2 (V c main_call0_v28) (V c main_call0_v15) (V c main_call0_v16) (V c main_arg4))
    (fun t _ => flushed_eq V c t) (cover)

end Cert.KernelIdeal.Region1

end
-- ==== Proof.KHost1.lean ====
/-
  The buffers' contents along the idealized kernel's run: the two grids' arrays and the stretches between them.

  The first grid leaves the scaled product `(x · W1) · δ`; the second stretch gathers its rows at the edges' sources and
  accumulates them at the edges' targets; the second grid leaves the second layer's scaled product of that aggregate;
  the last stretch gathers and accumulates again, scales by the node weights and adds the second bias. The edge
  columns and the node weights pass through the grids and the stretches unchanged.
-/
import proofs.«170453_j40750649704955_2_alg».proof.Proof.KHost0
import proofs.«170453_j40750649704955_2_alg».proof.Proof.KRegion0
import proofs.«170453_j40750649704955_2_alg».proof.Proof.KRegion1

set_option maxRecDepth 16384

noncomputable section

namespace Cert.KernelIdeal.Host

open Cert.KernelIdeal Cert.KernelIdeal.Gen Cert.KernelIdeal.Plain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The node weights as a column. -/
abbrev D : FVec Ideal S50000x1 .f32 := shapeCast S50000x1 (Cert.Graph.dinv (E m c)) shapeCasts_S50000_S50000x1
/-- The first bias as a row. -/
abbrev B1 : FVec Ideal S1x128 .f32 := shapeCast S1x128 (m ((c : Thread nD τ).loc main_arg3)) shapeCasts_S128_S1x128

/-- The column of source rows a gather reads: the sources, negative ones shifted by the node count. -/
theorem srcCol_eq :
    broadcastInDim S675000x1 ![0] bcast_S675000_S675000x1_0
      (select (cmpi .slt (Cert.ReferenceIdeal.ReadP.val_main_v5 (F := Ideal) (E m c))
          (broadcastInDim S675000 ![] bcast_S_S675000 (constantI S_ 32 0#32)))
        (addi (Cert.ReferenceIdeal.ReadP.val_main_v5 (F := Ideal) (E m c))
          (broadcastInDim S675000 ![] bcast_S_S675000 (constantI S_ 32 50000#32)))
        (Cert.ReferenceIdeal.ReadP.val_main_v5 (F := Ideal) (E m c)))
      = Cert.Graph.srcCol (E m c) := by
  unfold Cert.Graph.srcCol Cert.ReferenceIdeal.ReadP.val_main_v20 Cert.ReferenceIdeal.ReadP.val_main_v19 Cert.ReferenceIdeal.ReadP.val_main_v16 Cert.ReferenceIdeal.ReadP.val_main_v18 Cert.ReferenceIdeal.ReadP.val_main_v15 Cert.ReferenceIdeal.ReadP.val_main_c Cert.ReferenceIdeal.ReadP.val_main_v17 Cert.ReferenceIdeal.ReadP.val_main_c_3
  rfl

/-- The column of target rows an accumulation adds into. -/
theorem tgtCol_eq :
    broadcastInDim S675000x1 ![0] bcast_S675000_S675000x1_0 (Cert.ReferenceIdeal.ReadP.val_main_v6 (F := Ideal) (E m c))
      = Cert.Graph.tgtCol (E m c) := by
  unfold Cert.Graph.tgtCol Cert.ReferenceIdeal.ReadP.val_main_v9
  rfl

/-! ## Through the first grid -/

theorem W2_v17 : W2 m ρ c (Proc.devRef .tc main_call0_v17)
    = Region0.prod1 (m ((c : Thread nD τ).loc main_arg0)) (m ((c : Thread nD τ).loc main_arg2)) (D m c) := by
  have h := (W2_arr m ρ c 3).trans (Region0.final (V1 m ρ) c)
  rw [show V1 m ρ c main_arg0 = m ((c : Thread nD τ).loc main_arg0) from W1_arg0 m ρ c,
    show V1 m ρ c main_arg2 = m ((c : Thread nD τ).loc main_arg2) from W1_arg2 m ρ c,
    show V1 m ρ c main_call0_v15 = D m c from W1_v15 m ρ c] at h
  exact h

theorem W2_v5 : W2 m ρ c (Proc.devRef .tc main_call0_v5)
    = Cert.ReferenceIdeal.ReadP.val_main_v5 (F := Ideal) (E m c) :=
  (W2_of_ne m ρ c main_call0_v5 (by decide)).trans (W1_v5 m ρ c)
theorem W2_v6 : W2 m ρ c (Proc.devRef .tc main_call0_v6)
    = Cert.ReferenceIdeal.ReadP.val_main_v6 (F := Ideal) (E m c) :=
  (W2_of_ne m ρ c main_call0_v6 (by decide)).trans (W1_v6 m ρ c)
theorem W2_v16 : W2 m ρ c (Proc.devRef .tc main_call0_v16) = B1 m c :=
  (W2_of_ne m ρ c main_call0_v16 (by decide)).trans (W1_v16 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_v15 : W2 m ρ c (Proc.devRef .tc main_call0_v15) = D m c :=
  ((W2_arr m ρ c 2).trans (((dat0 (V1 m ρ) c).arrAt_in 2 rfl _).trans (A_eq0 (V1 m ρ) c 2))).trans (W1_v15 m ρ c)

/-! ## Through the second stretch -/

/-- The first layer's aggregate: the first grid's rows gathered at the sources and accumulated at the targets. -/
def agg1 : FVec Ideal S50000x128 .f32 :=
  Host.scatterAdd scatter_S50000x128_S675000x1_S675000x128_1_0_0_1
    (broadcastInDim S50000x128 ![] bcast_S_S50000x128 (constant S_ .f32 0x00000000#32))
    (Cert.Graph.tgtCol (E m c))
    (extf .f32 (Host.gather gather_S50000x128_S675000x1_S675000x128_1_0_n_n_0_1_1128
      (Region0.prod1 (m ((c : Thread nD τ).loc main_arg0)) (m ((c : Thread nD τ).loc main_arg2)) (D m c))
      (Cert.Graph.srcCol (E m c))) bitsLt_bf16_f32)

theorem W3_v28 : W3 m ρ c (Proc.devRef .tc main_call0_v28) = agg1 m c := by
  show after hostOps1 (W2 m ρ c) (Proc.devRef .tc main_call0_v28) = _
  rw [ops1_eq]
  after_results_simp
  rw [W2_v5, W2_v6, W2_v17, srcCol_eq, tgtCol_eq]
  rfl

theorem W3_v5 : W3 m ρ c (Proc.devRef .tc main_call0_v5)
    = Cert.ReferenceIdeal.ReadP.val_main_v5 (F := Ideal) (E m c) := by
  show after hostOps1 (W2 m ρ c) (Proc.devRef .tc main_call0_v5) = _
  rw [ops1_eq]; after_results_simp; exact W2_v5 m ρ c
theorem W3_v6 : W3 m ρ c (Proc.devRef .tc main_call0_v6)
    = Cert.ReferenceIdeal.ReadP.val_main_v6 (F := Ideal) (E m c) := by
  show after hostOps1 (W2 m ρ c) (Proc.devRef .tc main_call0_v6) = _
  rw [ops1_eq]; after_results_simp; exact W2_v6 m ρ c
theorem W3_v15 : W3 m ρ c (Proc.devRef .tc main_call0_v15) = D m c := by
  show after hostOps1 (W2 m ρ c) (Proc.devRef .tc main_call0_v15) = _
  rw [ops1_eq]; after_results_simp; exact W2_v15 m ρ c
theorem W3_v16 : W3 m ρ c (Proc.devRef .tc main_call0_v16) = B1 m c := by
  show after hostOps1 (W2 m ρ c) (Proc.devRef .tc main_call0_v16) = _
  rw [ops1_eq]; after_results_simp; exact W2_v16 m ρ c
theorem W3_arg4 : W3 m ρ c (Proc.devRef .tc main_arg4) = m ((c : Thread nD τ).loc main_arg4) := by
  show after hostOps1 (W2 m ρ c) (Proc.devRef .tc main_arg4) = _
  rw [ops1_eq]; after_results_simp; exact W2_arg4 m ρ c
theorem W3_arg5 : W3 m ρ c (Proc.devRef .tc main_arg5) = m ((c : Thread nD τ).loc main_arg5) := by
  show after hostOps1 (W2 m ρ c) (Proc.devRef .tc main_arg5) = _
  rw [ops1_eq]; after_results_simp; exact W2_arg5 m ρ c

/-! ## Through the second grid -/

/-- The second grid's array. -/
def out2 : FVec Ideal S50000x64 .bf16 :=
  Region1.prod2 (agg1 m c) (D m c) (B1 m c) (m ((c : Thread nD τ).loc main_arg4))

theorem W4_v29 : W4 m ρ c (Proc.devRef .tc main_call0_v29) = out2 m c := by
  have h := (W4_arr m ρ c 4).trans (Region1.final (V3 m ρ) c)
  rw [show V3 m ρ c main_call0_v28 = agg1 m c from W3_v28 m ρ c,
    show V3 m ρ c main_call0_v15 = D m c from W3_v15 m ρ c,
    show V3 m ρ c main_call0_v16 = B1 m c from W3_v16 m ρ c,
    show V3 m ρ c main_arg4 = m ((c : Thread nD τ).loc main_arg4) from W3_arg4 m ρ c] at h
  exact h

theorem W4_v5 : W4 m ρ c (Proc.devRef .tc main_call0_v5)
    = Cert.ReferenceIdeal.ReadP.val_main_v5 (F := Ideal) (E m c) :=
  (W4_of_ne m ρ c main_call0_v5 (by decide)).trans (W3_v5 m ρ c)
theorem W4_v6 : W4 m ρ c (Proc.devRef .tc main_call0_v6)
    = Cert.ReferenceIdeal.ReadP.val_main_v6 (F := Ideal) (E m c) :=
  (W4_of_ne m ρ c main_call0_v6 (by decide)).trans (W3_v6 m ρ c)
theorem W4_arg5 : W4 m ρ c (Proc.devRef .tc main_arg5) = m ((c : Thread nD τ).loc main_arg5) :=
  (W4_of_ne m ρ c main_arg5 (by decide)).trans (W3_arg5 m ρ c)
theorem W4_v15 : W4 m ρ c (Proc.devRef .tc main_call0_v15) = D m c :=
  ((W4_arr m ρ c 1).trans (((dat1 (V3 m ρ) c).arrAt_in 1 rfl _).trans (A_eq1 (V3 m ρ) c 1))).trans (W3_v15 m ρ c)

/-! ## Through the last stretch -/

/-- THE RESULT: the second grid's rows gathered at the sources and accumulated at the targets, scaled by the node
    weights, plus the second bias. -/
def result : FVec Ideal S50000x64 .f32 :=
  addf (mulf (broadcastInDim S50000x64 ![0, 1] bcast_S50000x1_S50000x64_0_1 (D m c))
      (Host.scatterAdd scatter_S50000x64_S675000x1_S675000x64_1_0_0_1
        (broadcastInDim S50000x64 ![] bcast_S_S50000x64 (constant S_ .f32 0x00000000#32))
        (Cert.Graph.tgtCol (E m c))
        (extf .f32 (Host.gather gather_S50000x64_S675000x1_S675000x64_1_0_n_n_0_1_164 (out2 m c)
          (Cert.Graph.srcCol (E m c))) bitsLt_bf16_f32)))
    (broadcastInDim S50000x64 ![0, 1] bcast_S1x64_S50000x64_0_1
      (broadcastInDim S1x64 ![1] bcast_S64_S1x64_1 (m ((c : Thread nD τ).loc main_arg5))))

theorem W5_v0 : W5 m ρ c (Proc.devRef .tc main_v0) = result m c := by
  show after hostOps2 (W4 m ρ c) (Proc.devRef .tc main_v0) = _
  rw [ops2_eq]
  after_results_simp
  rw [W4_v5, W4_v6, W4_v29, W4_v15, W4_arg5, srcCol_eq, tgtCol_eq]
  rfl

end Cert.KernelIdeal.Host

end
-- ==== Proof.KValue.lean ====
/-
  The idealized kernel's result, read at an index: two graph convolutions with the normalisation applied per node.

  At node `n` and output feature `g` the kernel's result is `δ n` times the sum, over the edges `e` into `n`, of the
  second grid's array at the source node, plus the second bias. The second grid's array at node `m` is
  `(∑ f, max(a(m, f) · δ m + b1 f, 0) · W2(f, g)) · δ m`, where the aggregate `a(m, f)` is the sum over the edges
  `e` into `m` of the first grid's array at the source node, `(∑ k, x(src e, k) · W1(k, f)) · δ(src e)`.
  Each accumulation is read as its exact sum over the edges that land on the node, each gather at the row its index
  word names.
-/
import proofs.«170453_j40750649704955_2_alg».proof.Proof.KHost1
import proofs.«170453_j40750649704955_2_alg».proof.Proof.LibGatherScatter
import proofs.«170453_j40750649704955_2_alg».proof.Proof.LibKeepdims
import proofs.«170453_j40750649704955_2_alg».proof.Proof.LibRowBroadcasts
import proofs.«170453_j40750649704955_2_alg».proof.Proof.GcnAlgebra

set_option maxRecDepth 16384

noncomputable section

open scoped BigOperators

namespace Cert.KernelIdeal.Value

open Cert.KernelIdeal Cert.KernelIdeal.Gen Cert.KernelIdeal.Host
open Idealize.ShloMosaic Idealize.ShloMosaic.TcCoe Idealize.SL.Sem Idealize.ShloMosaic.ValueIdx
open Cert.Lib Cert.Lib.GatherScatter Cert.Gcn Cert.Graph

/-! ## The gathers and accumulations of this program, read at an index -/

theorem rgather128 (a : FVec Ideal S50000x128 .bf16) (idx : IVec S675000x1 32) (e : Fin 675000) (q : Fin 128) :
    Host.gather gather_S50000x128_S675000x1_S675000x128_1_0_n_n_0_1_1128 a idx (ix2 e q)
      = a (ix2 (gatherRow nodes_pos idx e) q) :=
  rowGather_apply (N := 50000) (C := 128) (R := 675000) nodes_pos
    gather_S50000x128_S675000x1_S675000x128_1_0_n_n_0_1_1128_wf a idx e q

theorem rgather64 (a : FVec Ideal S50000x64 .bf16) (idx : IVec S675000x1 32) (e : Fin 675000) (q : Fin 64) :
    Host.gather gather_S50000x64_S675000x1_S675000x64_1_0_n_n_0_1_164 a idx (ix2 e q)
      = a (ix2 (gatherRow nodes_pos idx e) q) :=
  rowGather_apply (N := 50000) (C := 64) (R := 675000) nodes_pos
    gather_S50000x64_S675000x1_S675000x64_1_0_n_n_0_1_164_wf a idx e q

theorem rscatter128 (z : FVec Ideal S50000x128 .f32) (idx : IVec S675000x1 32) (u : FVec Ideal S675000x128 .f32)
    (n : Fin 50000) (q : Fin 128) :
    Host.scatterAdd scatter_S50000x128_S675000x1_S675000x128_1_0_0_1 z idx u (ix2 n q)
      = z (ix2 n q) + ∑ e ∈ Finset.univ.filter (fun e => scatterRow 50000 idx e = some n), u (ix2 e q) :=
  rowScatterAdd_apply (N := 50000) (C := 128) (R := 675000) scatter_S50000x128_S675000x1_S675000x128_1_0_0_1_wf z idx u n q

theorem rscatter64 (z : FVec Ideal S50000x64 .f32) (idx : IVec S675000x1 32) (u : FVec Ideal S675000x64 .f32)
    (n : Fin 50000) (q : Fin 64) :
    Host.scatterAdd scatter_S50000x64_S675000x1_S675000x64_1_0_0_1 z idx u (ix2 n q)
      = z (ix2 n q) + ∑ e ∈ Finset.univ.filter (fun e => scatterRow 50000 idx e = some n), u (ix2 e q) :=
  rowScatterAdd_apply (N := 50000) (C := 64) (R := 675000) scatter_S50000x64_S675000x1_S675000x64_1_0_0_1_wf z idx u n q

/-- A length-`b` vector cast to a `1 × b` row reads, at `(·, q)`, the vector at `q`. -/
theorem row_apply {α : Type} {b : Nat} (v : (⟨1, ![b]⟩ : Shape).Idx → α)
    (hc : (⟨1, ![b]⟩ : Shape).ShapeCasts ⟨2, ![1, b]⟩) (u : Fin 1) (q : Fin b) :
    shapeCast ⟨2, ![1, b]⟩ v hc (ix2 u q) = v (ix1 q) :=
  shapeCast_apply v hc _ _ (by
    have hu : u.val = 0 := by omega
    rw [Shape.rowMajor_val_two, Shape.rowMajor_val_one]
    show q.val = u.val * b + q.val
    rw [hu, Nat.zero_mul, Nat.zero_add])

/-- A scalar zero splat reads zero. -/
theorem zero_splat {s : Shape} (h : S_.BroadcastsInDim s ![]) (i : s.Idx) :
    broadcastInDim s ![] h (constant (F := Ideal) S_ .f32 0x00000000#32) i = (0 : EReal) :=
  (broadcastInDim_apply _ h _ i ix0 (fun a => a.elim0)).trans Ideal.ofBits_zero_f32

variable (m : (ℓ : Loc nD τ sig) → Buf (Elt Ideal) ℓ) (c : Dev nD)

/-- The node-weight column at row `p` is node `p`'s weight. -/
theorem D_apply (p : Fin 50000) (u : Fin 1) : D m c (ix2 p u) = δ (E m c) p :=
  Keepdims.col_apply (Cert.Graph.dinv (E m c)) _ p u

/-- THE FIRST LAYER'S AGGREGATE at node `p`, feature `f`. -/
theorem agg1_apply (p : Fin 50000) (f : Fin 128) :
    agg1 m c (ix2 p f)
      = 0 + ∑ e ∈ into (tgt (E m c)) p,
          dense1 (mat (m ((c : Thread nD τ).loc main_arg0))) (mat (m ((c : Thread nD τ).loc main_arg2))) (src (E m c) e) f
            * δ (E m c) (src (E m c) e) := by
  unfold agg1
  rw [rscatter128]
  refine congrArg₂ (· + ·) (zero_splat _ _) (Finset.sum_congr rfl fun e _ => ?_)
  show Host.gather gather_S50000x128_S675000x1_S675000x128_1_0_n_n_0_1_1128
      (Region0.prod1 (m ((c : Thread nD τ).loc main_arg0)) (m ((c : Thread nD τ).loc main_arg2)) (D m c))
      (srcCol (E m c)) (ix2 e f) = _
  rw [rgather128]
  show Region0.prod1c (m ((c : Thread nD τ).loc main_arg0)) (m ((c : Thread nD τ).loc main_arg2)) (D m c)
      (gatherRow nodes_pos (srcCol (E m c)) e) f = _
  unfold Region0.prod1c
  rw [D_apply]
  rfl

/-- THE SECOND GRID'S ARRAY at node `p`, feature `g`. -/
theorem out2_apply (p : Fin 50000) (g : Fin 64) :
    out2 m c (ix2 p g)
      = (∑ f, hidNode (mat (m ((c : Thread nD τ).loc main_arg0))) (mat (m ((c : Thread nD τ).loc main_arg2)))
            (vec (m ((c : Thread nD τ).loc main_arg3))) (δ (E m c)) (src (E m c)) (tgt (E m c)) p f
          * mat (m ((c : Thread nD τ).loc main_arg4)) f g) * δ (E m c) p := by
  show Region1.prod2c (agg1 m c) (D m c) (B1 m c) (m ((c : Thread nD τ).loc main_arg4)) p g = _
  unfold Region1.prod2c
  rw [D_apply]
  refine congrArg₂ (· * ·) (Finset.sum_congr rfl fun f _ => ?_) rfl
  refine congrArg₂ (· * ·) ?_ rfl
  unfold hidNode convNode
  rw [agg1_apply]
  show max (_ * δ (E m c) p + shapeCast S1x128 (m ((c : Thread nD τ).loc main_arg3)) shapeCasts_S128_S1x128 (ix2 (0 : Fin 1) f)) 0 = _
  rw [row_apply]
  rfl

/-- THE KERNEL'S RESULT at node `n`, feature `g`. -/
theorem result_value (n : Fin 50000) (g : Fin 64) :
    result m c (ix2 n g)
      = outNode (mat (m ((c : Thread nD τ).loc main_arg0))) (mat (m ((c : Thread nD τ).loc main_arg2)))
          (vec (m ((c : Thread nD τ).loc main_arg3))) (mat (m ((c : Thread nD τ).loc main_arg4)))
          (vec (m ((c : Thread nD τ).loc main_arg5))) (δ (E m c)) (src (E m c)) (tgt (E m c)) n g := by
  unfold result outNode
  rw [addf_apply, mulf_apply]
  rw [Rows.dimCol_apply, D_apply, Rows.dimRow_apply, rscatter64]
  refine congrArg₂ (· + ·) (congrArg₂ (· * ·) rfl (congrArg₂ (· + ·) (zero_splat _ _) (Finset.sum_congr rfl fun e _ => ?_))) ?_
  · refine (extf_apply (ψ := .f32) (Host.gather gather_S50000x64_S675000x1_S675000x64_1_0_n_n_0_1_164 (out2 m c) (srcCol (E m c))) bitsLt_bf16_f32 (ix2 e g)).trans ?_
    refine (rgather64 (out2 m c) (srcCol (E m c)) e g).trans ?_
    exact out2_apply m c _ g
  · exact broadcastInDim_apply _ bcast_S64_S1x64_1 _ (ix2 (0 : Fin 1) g) (ix1 g) (fun a => match a with
      | ⟨0, _⟩ => by show g.val = if (64 : Nat) = 1 then 0 else g.val; rw [if_neg (by decide)])

end Cert.KernelIdeal.Value

end
-- ==== Proof.PreFinite.lean ====
/-
  From the precondition to real inputs.

  The precondition says that, for each of the five float arrays, every entry `x` has `|x| < +∞`, the five tests
  conjoined after an "all" over each array. In the extended reals `|x| = max x (−x)` is `+∞` at both infinities and a
  real at a real, so `|x| < +∞` says exactly that `x` is a real number. The conjunction is split, each "all" is read
  at an index, and the word `0x7F800000` is `+∞`.
-/
import proofs.«170453_j40750649704955_2_alg».proof.Pre_finite_inputs
import proofs.«170453_j40750649704955_2_alg».proof.Proof.Gen.Pre_finite_inputs
import proofs.«170453_j40750649704955_2_alg».proof.Proof.GcnAlgebra
import Idealize.ShloMosaic.PureOps.Ideal
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Cert.Gcn Cert.Pre_finite_inputs Cert.Pre_finite_inputs.Gen

instance : Subsingleton Cert.Pre_finite_inputs.S_.Idx := ⟨fun a b => funext fun d => d.elim0⟩

/-- The word `0x7F800000` is `+∞`. -/
theorem top_bits : Ideal.ofBits .f32 0x7F800000#32 = (⊤ : EReal) := by
  simp [Ideal.ofBits, Ideal.ieee]

/-- An extended real whose absolute value is below `+∞` is a real number. -/
theorem isReal_of_abs_lt (x : EReal) (h : Ideal.cmp .olt (max x (-x)) ⊤ = 1#1) : IsReal x := by
  induction x using EReal.rec with
  | bot => exact absurd h (by simp [Ideal.cmp])
  | top => exact absurd h (by simp [Ideal.cmp])
  | coe r => exact ⟨r, rfl⟩

/-- One array's test, read at an index. -/
theorem elem_real {s : Shape} (x : FVec Ideal s .f32) (hb : Cert.Pre_finite_inputs.S_.BroadcastsInDim s ![]) (i : s.Idx)
    (h : cmpf (F := Ideal) .olt (Host.absf x)
      (broadcastInDim s ![] hb (constant (F := Ideal) Cert.Pre_finite_inputs.S_ .f32 0x7F800000#32)) i = 1#1) :
    IsReal (x i) := by
  apply isReal_of_abs_lt
  have hb' : broadcastInDim s ![] hb (constant (F := Ideal) Cert.Pre_finite_inputs.S_ .f32 0x7F800000#32) i = (⊤ : EReal) :=
    (broadcastInDim_apply _ hb _ i ix0 (fun a => a.elim0)).trans top_bits
  have h' : Ideal.cmp .olt (Host.absf x i)
      (broadcastInDim s ![] hb (constant (F := Ideal) Cert.Pre_finite_inputs.S_ .f32 0x7F800000#32) i) = 1#1 := h
  rw [hb'] at h'
  exact h'

variable (a0 : FVec Ideal S50000x128 .f32) (a1 : IVec S2x625000 32) (a2 : FVec Ideal S128x128 .f32)
  (a3 : FVec Ideal S128 .f32) (a4 : FVec Ideal S128x64 .f32) (a5 : FVec Ideal S64 .f32)

/-- THE PRECONDITION READ BACK: every entry of the five float arrays is a real number. -/
theorem all_real (h : Cert.Pre_finite_inputs.fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h0 := congrFun h ix0
  dsimp only [Cert.Pre_finite_inputs.fn, Cert.Pre_finite_inputs.fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨fun i => elem_real a0 _ i (Host.reduce_andi_all _ _ _ _ ix0 h3 i),
    fun i => elem_real a2 _ i (Host.reduce_andi_all _ _ _ _ ix0 h7 i),
    fun i => elem_real a3 _ i (Host.reduce_andi_all _ _ _ _ ix0 h12 i),
    fun i => elem_real a4 _ i (Host.reduce_andi_all _ _ _ _ ix0 h17 i),
    fun i => elem_real a5 _ i (Host.reduce_andi_all _ _ _ _ ix0 h22 i)⟩

end Cert.Finite

end
-- ==== Proof.Bridge.lean ====
/-
  The two results are one array.

  At every node and output feature the reference's result is the graph convolutions with the normalisation applied
  per edge, the kernel's the same with the normalisation applied per node; on real features, weights and biases, with
  real node weights and every edge into a node reading that node's weight, the two are equal.
-/
import proofs.«170453_j40750649704955_2_alg».proof.Proof.RefValue
import proofs.«170453_j40750649704955_2_alg».proof.Proof.KValue
import proofs.«170453_j40750649704955_2_alg».proof.Proof.PreFinite

set_option maxRecDepth 16384

noncomputable section

namespace Cert.Bridge

open Idealize.ShloMosaic Idealize.ShloMosaic.TcCoe Idealize.SL.Sem Idealize.ShloMosaic.ValueIdx
open Cert.Gcn Cert.Graph
open Cert.KernelIdeal

variable (m : (ℓ : Loc nD τ sig) → Buf (Elt Ideal) ℓ) (c : Dev nD)

/-- THE TWO RESULTS AGREE when the five float arrays hold real numbers. -/
theorem results_eq
    (h : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    Cert.ReferenceIdeal.ReadP.val_main_v90 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5))
      = Cert.KernelIdeal.Host.result m c := by
  obtain ⟨h0, h2, h3, h4, h5⟩ := Cert.Finite.all_real _ _ _ _ _ _ h
  funext i
  obtain ⟨n, g, rfl⟩ : ∃ (n : Fin 50000) (g : Fin 64), i = ix2 n g := ⟨i 0, i 1, eq_ix2 i⟩
  rw [Cert.RefValue.result_value, Cert.KernelIdeal.Value.result_value]
  exact (outNode_eq_outEdge _ _ _ _ _ _ _ _ _ (fun p k => h0 (ix2 p k)) (fun k f => h2 (ix2 k f)) (fun f => h3 (ix1 f))
    (fun f g => h4 (ix2 f g)) (δ_isReal _) (dg_of_tgt _) n g).symm

end Cert.Bridge

end
-- ==== Proof.lean ====
/-
  The certificate of a two-layer graph convolution: a kernel that applies the degree normalisation per node (the rows
  scaled by `1/√deg` before each aggregation and the aggregated rows scaled again after it, the two dense products
  and the scalings fused into two grids) against a reference that applies it per edge (each message scaled by the
  product of its two ends' weights). The gathers and the accumulations over the edges are the same linear maps in
  both programs; the two normalisations differ by moving the target's weight, a common factor of every message into
  a node, across the sum over those messages — a law of the real numbers that fails at the infinities of the extended
  reals, so the proof uses the precondition: with real inputs every intermediate value is real. The node weights are
  real whatever the edge list holds.

  The frames of the two kernel programs are the generated ones; the reference's frame is its run with the result
  dropped; the idealization rewrote nothing, so `preserves` is trivial; `algebraic` names the kernel's result array,
  reads both results at an index and joins them by the law above.
-/
import proofs.«170453_j40750649704955_2_alg».proof.Defs
import proofs.«170453_j40750649704955_2_alg».proof.Proof.Gen.Kernel
import proofs.«170453_j40750649704955_2_alg».proof.Proof.Gen.Kernel.Skeleton
import proofs.«170453_j40750649704955_2_alg».proof.Proof.Gen.Kernel.Launch
import proofs.«170453_j40750649704955_2_alg».proof.Proof.Gen.Kernel.Points
import proofs.«170453_j40750649704955_2_alg».proof.Proof.Gen.Kernel.Frame
import proofs.«170453_j40750649704955_2_alg».proof.Proof.Gen.KernelIdeal
import proofs.«170453_j40750649704955_2_alg».proof.Proof.Gen.KernelIdeal.Skeleton
import proofs.«170453_j40750649704955_2_alg».proof.Proof.Gen.KernelIdeal.Launch
import proofs.«170453_j40750649704955_2_alg».proof.Proof.Gen.KernelIdeal.Points
import proofs.«170453_j40750649704955_2_alg».proof.Proof.Gen.KernelIdeal.Frame
import proofs.«170453_j40750649704955_2_alg».proof.Proof.Gen.ReferenceIdeal
import proofs.«170453_j40750649704955_2_alg».proof.Proof.Gen.Pre_finite_inputs
import proofs.«170453_j40750649704955_2_alg».proof.Proof.RefRun
import proofs.«170453_j40750649704955_2_alg».proof.Proof.RefRead
import proofs.«170453_j40750649704955_2_alg».proof.Proof.KernelRun
import proofs.«170453_j40750649704955_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the array `result`: the kernel's last buffer contents are it, and the reference's
    composed term, read at the arguments the two memories share, is it by `results_eq`. -/
theorem algebraic : Cert.algebraic_KernelIdeal_ReferenceIdeal := by
  intro m ρ m' ρ' hpre hagree
  refine ⟨fun c => Cert.KernelIdeal.Host.result m c, ?_, ?_⟩
  · exact (θ_run Cert.KernelIdeal.defs _ _).mono
      (fun r h c => ⟨(h c).1.trans (Cert.KernelIdeal.Host.W5_v0 m ρ c), (h c).2⟩)
      (Cert.KernelIdeal.Run.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v90_eq, (hagree c).1, (hagree c).2.1, (hagree c).2.2.1, (hagree c).2.2.2.1,
      (hagree c).2.2.2.2.1, (hagree c).2.2.2.2.2]
    exact Cert.Bridge.results_eq m c (hpre c)

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
